-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41A00000#32 ((268435456 / 13421773 : ℝ) : EReal)
  ∧ IdealRules.named_const.Statement Cert.KernelIdeal.κ "inv_temperature" .f32 0x41A00000#32 ((268435456 / 13421773 : ℝ) : EReal)
  ∧ IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S1000000x128 : Shape := ⟨2, ![1000000, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_

variable [Facts]

def fn {F : FTy → Type} [FloatOps F] (main_arg0 : FVec F S32x128 .f32) (main_arg1 : FVec F S1000000x128 .f32) (main_arg2 : FVec F S1000000x128 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000x128 .f32 := Host.absf main_arg2
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  main_v13
-- ==== Kernel.lean ====
abbrev S32x128 : Shape := ⟨2, ![32, 128]⟩
abbrev S1000000x128 : Shape := ⟨2, ![1000000, 128]⟩
abbrev S5000x128 : Shape := ⟨2, ![5000, 128]⟩
abbrev S32 : Shape := ⟨1, ![32]⟩
abbrev S32x1 : Shape := ⟨2, ![32, 1]⟩
abbrev S32x5000 : Shape := ⟨2, ![32, 5000]⟩

abbrev nBuf : Space → Nat
  | .hbm => 4
  | .vmem => 12
  | .smem => 0
  | _ => 0

abbrev bufTy : (tb : Table) → Fin (tcTables nBuf tb) → BufTy
  | .hbm, ⟨0, _⟩ => ⟨S32x128, .f32⟩
  | .hbm, ⟨1, _⟩ => ⟨S1000000x128, .f32⟩
  | .hbm, ⟨2, _⟩ => ⟨S1000000x128, .f32⟩
  | .hbm, ⟨3, _⟩ => ⟨S32x128, .f32⟩
  | .local _ .vmem, ⟨0, _⟩ => ⟨S32x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![100], ![false]⟩

def k0_cond3 (i : grid0.Coords) : BitVec 1 :=
  let arg0 : BitVec 32 := BitVec.ofNat 32 (i 0).val
  let c99_i32 : BitVec 32 := 99#32
  let v43 : BitVec 1 := Scalar.cmpi .eq arg0 c99_i32
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S32x128_S32x128_0_0 : ∀ a, (![0, 0] : Fin 2 → Nat) a + S32x128.size a ≤ S32x128.size a
  h_S32x128 : 0 < S32x128.numel
  reduces_S32x128_S32 : S32x128.Reduces [1] S32
  shapeCasts_S32_S32x1 : S32.ShapeCasts S32x1
  broadcasts_S32x1_S32x128 : S32x1.Broadcasts S32x128
  inb_S5000x128_S5000x128_0_0 : ∀ a, (![0, 0] : Fin 2 → Nat) a + S5000x128.size a ≤ S5000x128.size a
  h_S5000x128 : 0 < S5000x128.numel
  reduces_S32x5000_S32 : S32x5000.Reduces [1] S32
  shapeCasts_S32x1_S32x1 : S32x1.ShapeCasts S32x1
  shapeCasts_S32x128_S32x128 : S32x128.ShapeCasts S32x128
  dot_S32x128_S5000x128_S32x5000_1_1_0_0_n_n_wf : DotDims.WF S32x128 S5000x128 S32x5000 [1] [1] [0] [0] [] []
  dot_S32x5000_S5000x128_S32x128_1_0_0_1_n_n_wf : DotDims.WF S32x5000 S5000x128 S32x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .f32 = 32 ∨ (Rect.block (s := S1000000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S1000000x128.size a
  hwx0_2 : ∀ i : grid0.Coords, EltTy.bits .f32 = 32 ∨ (Rect.block (s := S1000000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S1000000x128.size a
  hwx0_3 : ∀ i : grid0.Coords, EltTy.bits .f32 = 32 ∨ (Rect.block (s := S1000000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S1000000x128.size a
  hwx0_4 : ∀ i : grid0.Coords, EltTy.bits .f32 = 32 ∨ (Rect.block (s := S1000000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)

variable [Facts₀]

def dot_S32x128_S5000x128_S32x5000_1_1_0_0_n_n : DotDims S32x128 S5000x128 S32x5000 where
  lhsContracting := [1]
  rhsContracting := [1]
  lhsNonContracting := [0]
  rhsNonContracting := [0]
  lhsBatch := []
  rhsBatch := []
  wf := dot_S32x128_S5000x128_S32x5000_1_1_0_0_n_n_wf
def dot_S32x5000_S5000x128_S32x128_1_0_0_1_n_n : DotDims S32x5000 S5000x128 S32x128 where
  lhsContracting := [1]
  rhsContracting := [0]
  lhsNonContracting := [0]
  rhsNonContracting := [1]
  lhsBatch := []
  rhsBatch := []
  wf := dot_S32x5000_S5000x128_S32x128_1_0_0_1_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S32x128 : Shape := ⟨2, ![32, 128]⟩
abbrev S1000000x128 : Shape := ⟨2, ![1000000, 128]⟩
abbrev S_ : Shape := ⟨0, ![]⟩
abbrev S32 : Shape := ⟨1, ![32]⟩
abbrev S32x1 : Shape := ⟨2, ![32, 1]⟩
abbrev S128x1000000 : Shape := ⟨2, ![128, 1000000]⟩
abbrev S32x1000000 : Shape := ⟨2, ![32, 1000000]⟩

abbrev nBuf : Space → Nat
  | .hbm => 34
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S1000000x128, .f32⟩
  | .hbm, ⟨2, _⟩ => ⟨S1000000x128, .f32⟩
  | .hbm, ⟨3, _⟩ => ⟨S32x128, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S32x1, .f32⟩
  | .hbm, ⟨8, _⟩ => ⟨S_, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x128, .f32⟩
  | .hbm, ⟨13, _⟩ => ⟨S32x128, .f32⟩
  | .hbm, ⟨14, _⟩ => ⟨S128x1000000, .f32⟩
  | .hbm, ⟨15, _⟩ => ⟨S32x1000000, .f32⟩
  | .hbm, ⟨16, _⟩ => ⟨S_, .f32⟩
  | .hbm, ⟨17, _⟩ => ⟨S32x1000000, .f32⟩
  | .hbm, ⟨18, _⟩ => ⟨S32x1000000, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x1, .f32⟩
  | .hbm, ⟨25, _⟩ => ⟨S32x1000000, .f32⟩
  | .hbm, ⟨26, _⟩ => ⟨S32x1000000, .f32⟩
  | .hbm, ⟨27, _⟩ => ⟨S32x1000000, .f32⟩
  | .hbm, ⟨28, _⟩ => ⟨S_, .f32⟩
  | .hbm, ⟨29, _⟩ => ⟨S32, .f32⟩
  | .hbm, ⟨30, _⟩ => ⟨S32x1, .f32⟩
  | .hbm, ⟨31, _⟩ => ⟨S32x1000000, .f32⟩
  | .hbm, ⟨32, _⟩ => ⟨S32x1000000, .f32⟩
  | .hbm, ⟨33, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  reducesTo_S32x128_S32_d1 : S32x128.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  transposes_S1000000x128_S128x1000000_1_0 : S1000000x128.Transposes [1, 0] S128x1000000
  bcast_S_S32x1000000 : S_.BroadcastsInDim S32x1000000 (![] : Fin 0 → Fin S32x1000000.rank)
  reducesTo_S32x1000000_S32_d1 : S32x1000000.ReducesTo [1] S32
  bcast_S_S32 : S_.BroadcastsInDim S32 (![] : Fin 0 → Fin S32.rank)
  bcast_S32x1_S32x1000000_0_1 : S32x1.BroadcastsInDim S32x1000000 (![0, 1] : Fin 2 → Fin S32x1000000.rank)
  dot_S32x128_S128x1000000_S32x1000000_1_0_0_1_n_n_wf : DotDims.WF S32x128 S128x1000000 S32x1000000 [1] [0] [0] [1] [] []
  dot_S32x1000000_S1000000x128_S32x128_1_0_0_1_n_n_wf : DotDims.WF S32x1000000 S1000000x128 S32x128 [1] [0] [0] [1] [] []

variable [Facts₀]

def dot_S32x128_S128x1000000_S32x1000000_1_0_0_1_n_n : DotDims S32x128 S128x1000000 S32x1000000 where
  lhsContracting := [1]
  rhsContracting := [0]
  lhsNonContracting := [0]
  rhsNonContracting := [1]
  lhsBatch := []
  rhsBatch := []
  wf := dot_S32x128_S128x1000000_S32x1000000_1_0_0_1_n_n_wf
def dot_S32x1000000_S1000000x128_S32x128_1_0_0_1_n_n : DotDims S32x1000000 S1000000x128 S32x128 where
  lhsContracting := [1]
  rhsContracting := [0]
  lhsNonContracting := [0]
  rhsNonContracting := [1]
  lhsBatch := []
  rhsBatch := []
  wf := dot_S32x1000000_S1000000x128_S32x128_1_0_0_1_n_n_wf

class Facts : Prop extends Facts₀ where

variable [Facts]
-- ==== Proof.KBKit.lean ====
/-
  The attention kernel's launch, part 1: what every grid point finds.

  The region is entered with the three argument arrays as @main received them (no host operation comes first).
  The query window shows the whole [32, 128] array at every point (its block index never moves, so it is fetched
  once); each of the four memory windows shows, at point `t`, one block of 5,000 rows of the keys or the values
  (blocks `2t` and `2t + 1`, fetched afresh at every point). Whatever the buffering, the staging buffer the body
  is handed holds exactly that block. The body's three conditionals depend on the point alone: the first is taken
  at point 0 only, the second at every other point, the third at the last point, 99, only; the result window is
  stored into, and written back, at point 99 and is left alone before.
-/
import proofs.«142354_g77575699301056_cont_9to1_m_582_14_alg».proof.Proof.Gen.Kernel.Launch
import proofs.«142354_g77575699301056_cont_9to1_m_582_14_alg».proof.Proof.Gen.Kernel.Skeleton
import proofs.«142354_g77575699301056_cont_9to1_m_582_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: what @main was started with. -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry one and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, point by point -/

/-- "This is point 0": the first conditional's test, from the grid coordinate. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is not point 0": the second conditional's test. -/
abbrev condLater (i : grid0.Coords) : Prop := (Scalar.cmpi .ne (Scalar.extui (Scalar.cmpi .ne (BitVec.ofNat 32 (i 0).val) 0#32)) 0#32) = 1#1
theorem hcondLater : ∀ t : Fin cfg0.N, condLater (grid0.coords t) ↔ t.val ≠ 0 :=
  (by decide +kernel : ∀ t : Fin grid0.N, condLater (grid0.coords t) ↔ t.val ≠ 0)

/-- "This is point 99": the third conditional's test. -/
abbrev condLast (i : grid0.Coords) : Prop := k0_cond3 i = 1#1
theorem hcondLast : ∀ t : Fin cfg0.N, condLast (grid0.coords t) ↔ t.val = 99 :=
  (by decide +kernel : ∀ t : Fin grid0.N, condLast (grid0.coords t) ↔ t.val = 99)

/-! ## Where the result window is idle -/

/-- Before the last point the result window is idle and not written back. -/
theorem idle_out : ∀ t : Fin cfg0.N, t.val ≠ 99 → cfg0.idle 5 (grid0.coords t) = true := by decide +kernel
theorem noFlush_out : ∀ t : Fin cfg0.N, t.val ≠ 99 → (cfg0.win 5).flush t = false := by decide +kernel
/-- At the last point it is live, and written back. -/
theorem live_out : ∀ t : Fin cfg0.N, t.val = 99 → cfg0.idle 5 (grid0.coords t) = false := by decide +kernel
theorem flush_out : ∀ t : Fin cfg0.N, t.val = 99 → (cfg0.win 5).flush t = true := by decide +kernel

/-! ## The memrefs the body is called with -/

abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S5000x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x128 .f32 := win0_5.stage (cfg0.slots t 5)
abbrev hs5 (t : Fin cfg0.N) : (ms5 t).IsWhole := hstage0_5 ((cfg0.slots t 5).cast nbuf0_5)
/-- The two scratch buffers: the running weighted sum and the running total of weights. -/
abbrev scNum : Memref sig .tc .vmem S32x128 .f32 := Memref.whole cc0_scratch0
abbrev scDen : Memref sig .tc .vmem S32x128 .f32 := Memref.whole cc0_scratch1
/-- One view of shape [32, 128] through which contents are stated (which one does not matter). -/
abbrev VW : View sig .tc .vmem S32x128 .f32 := scNum.view

/-- The core's scoped buffers the pipeline does not stage are the two scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scNum fullShare d) ∗ (∃ d, owns (c : Thread nD τ) scDen fullShare d)) := by
  rw [scopedRest0_eq]; simp only [scNum, scDen, owns_whole]; try rfl

end Cert.Kernel.Hand

end
-- ==== Proof.KBRunA.lean ====
/-
  The attention kernel's body at the FIRST grid point. Only the first conditional is taken: the body computes the
  point's weighted sum of value rows and its total of weights from the query block and the four memory blocks, and
  stores them into the two scratch buffers, whatever those held; the result window's buffer is not touched.
-/
import proofs.«142354_g77575699301056_cont_9to1_m_582_14_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of the first point leave in the two scratch buffers, as the pieces the run finds, with the proof
    that from the five input buffers at their contents, the result buffer at `xo` and the scratch buffers at anything,
    the body runs to the continuation holding the inputs and the result buffer as they were and each scratch buffer
    with its pieces written. -/
noncomputable def kernelRunA (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    Σ' (LN : List (View.Piece (Elt F) S32x128 .f32)), { LD : List (View.Piece (Elt F) S32x128 .f32) //
      ∀ (xo : Vec F S32x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo
            ∗ (∃ d, owns (c : Thread nD τ) a7 fullShare d) ∗ (∃ d, owns (c : Thread nD τ) a8 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.Kernel.Hand

end
-- ==== Proof.KBRunB.lean ====
/-
  The attention kernel's body at a MIDDLE grid point (neither the first nor the last). Only the second conditional is
  taken: the body computes the point's weighted sum and total of weights from its blocks and ADDS them to what the
  two scratch buffers hold from the point before; the result window's buffer is not touched.
-/
import proofs.«142354_g77575699301056_cont_9to1_m_582_14_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of a middle point leave in the two scratch buffers, as the pieces the run finds, with the proof
    that from the five input buffers at their contents, the result buffer at `xo` and the scratch buffers at what the
    point before left (`xn`, `xd`), the body runs to the continuation holding the inputs and the result buffer as they
    were and each scratch buffer with its pieces written. -/
noncomputable def kernelRunB (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    Σ' (LN : List (View.Piece (Elt F) S32x128 .f32)), { LD : List (View.Piece (Elt F) S32x128 .f32) //
      ∀ (xo : Vec F S32x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo
            ∗ owns (c : Thread nD τ) a7 fullShare xn ∗ owns (c : Thread nD τ) a8 fullShare xd
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.Kernel.Hand

end
-- ==== Proof.KBRunC.lean ====
/-
  The attention kernel's body at the LAST grid point. The second and third conditionals are taken: the body adds the
  point's weighted sum and total of weights to the two scratch buffers as at a middle point, then reads both back and
  stores their quotient into the result window's buffer, whatever that held.
-/
import proofs.«142354_g77575699301056_cont_9to1_m_582_14_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the stores of the last point leave in the result buffer and the two scratch buffers, as the pieces the run
    finds, with the proof that from the five input buffers at their contents, the result buffer at anything and the
    scratch buffers at what the point before left (`xn`, `xd`), the body runs to the continuation holding the inputs
    as they were and the other three buffers with their pieces written. -/
noncomputable def kernelRunC (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    Σ' (LO : List (View.Piece (Elt F) S32x128 .f32)) (LN : List (View.Piece (Elt F) S32x128 .f32)), { LD : List (View.Piece (Elt F) S32x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d)
            ∗ owns (c : Thread nD τ) a7 fullShare xn ∗ owns (c : Thread nD τ) a8 fullShare xd
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f LO) ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, ?_, fun E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h5.eq_unread hf5; obtain rfl := h7.eq_unread hf7; obtain rfl := h8.eq_unread hf8
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Kernel.Hand

end
-- ==== Proof.KBPieces.lean ====
/-
  What the attention kernel's stores leave behind, case by case, as the payloads the body computes.

  Every store of the body writes a whole [32, 128] buffer, so the pieces a run found cover the buffer, and reading
  them back gives the stored value. At the first point the two scratch buffers take the point's weighted sum of
  value rows and its total of weights (the total spread along the row); at every later point they take what they held
  plus those; at the last point the result buffer takes the quotient of the two NEW scratch contents. The point's
  sums are functions of the query block, the two key blocks and the two value blocks the body loaded.
-/
import proofs.«142354_g77575699301056_cont_9to1_m_582_14_alg».proof.Proof.KBRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The literal offset of every access of the body is the origin. -/
theorem hz : (![0, 0] : Fin 2 → Nat) = fun _ => 0 := funext fun a => by fin_cases a <;> rfl

/-- First point, weighted-sum scratch: its one store covers it, and holds the point's weighted sum. -/
theorem coverA_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) (y : S32x128.Idx) :
    ∃ pc ∈ (kernelRunA c i a1 h1 a2 h2 a3 h3 a4 h4 a5 h5 a6 h6 a7 h7 a8 h8 hc1 hc2 hc3 x0 x1 x2 x3 x4).1, y ∈ pc.1.set :=
  View.cover_of_tiledL (kernelRunA c i a1 h1 a2 h2 a3 h3 a4 h4 a5 h5 a6 h6 a7 h7 a8 h8 hc1 hc2 hc3 x0 x1 x2 x3 x4).1 S32x128.size (by sl_kernel_rfl) y

theorem readA_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    VW.read (Elt F) (VW.writes (Elt F) VW.junk (kernelRunA c i a1 h1 a2 h2 a3 h3 a4 h4 a5 h5 a6 h6 a7 h7 a8 h8 hc1 hc2 hc3 x0 x1 x2 x3 x4).1) = k0_pay2 (k0_pay10 x0 x1 x3 x2 x4) := by
  rw [View.read_writes_eq_canon _ _ _ (coverA_num c i a1 h1 a2 h2 a3 h3 a4 h4 a5 h5 a6 h6 a7 h7 a8 h8 hc1 hc2 hc3 x0 x1 x2 x3 x4)]
  unfold kernelRunA
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- First point, weight-total scratch: its one store covers it, and holds the point's total of weights along each row. -/
theorem coverA_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) (y : S32x128.Idx) :
    ∃ pc ∈ (kernelRunA c i a1 h1 a2 h2 a3 h3 a4 h4 a5 h5 a6 h6 a7 h7 a8 h8 hc1 hc2 hc3 x0 x1 x2 x3 x4).2.1, y ∈ pc.1.set :=
  View.cover_of_tiledL (kernelRunA c i a1 h1 a2 h2 a3 h3 a4 h4 a5 h5 a6 h6 a7 h7 a8 h8 hc1 hc2 hc3 x0 x1 x2 x3 x4).2.1 S32x128.size (by sl_kernel_rfl) y

theorem readA_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    VW.read (Elt F) (VW.writes (Elt F) VW.junk (kernelRunA c i a1 h1 a2 h2 a3 h3 a4 h4 a5 h5 a6 h6 a7 h7 a8 h8 hc1 hc2 hc3 x0 x1 x2 x3 x4).2.1) = k0_pay3 (k0_pay11 x0 x1 x2) := by
  rw [View.read_writes_eq_canon _ _ _ (coverA_den c i a1 h1 a2 h2 a3 h3 a4 h4 a5 h5 a6 h6 a7 h7 a8 h8 hc1 hc2 hc3 x0 x1 x2 x3 x4)]
  unfold kernelRunA
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Middle point, weighted-sum scratch: what it held plus the point's weighted sum. -/
theorem coverB_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) (y : S32x128.Idx) :
    ∃ pc ∈ (kernelRunB c i a1 h1 a2 h2 a3 h3 a4 h4 a5 h5 a6 h6 a7 h7 a8 h8 hc1 hc2 hc3 x0 x1 x2 x3 x4 xn xd).1, y ∈ pc.1.set :=
  View.cover_of_tiledL (kernelRunB c i a1 h1 a2 h2 a3 h3 a4 h4 a5 h5 a6 h6 a7 h7 a8 h8 hc1 hc2 hc3 x0 x1 x2 x3 x4 xn xd).1 S32x128.size (by sl_kernel_rfl) y

theorem readB_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    VW.read (Elt F) (VW.writes (Elt F) VW.junk (kernelRunB c i a1 h1 a2 h2 a3 h3 a4 h4 a5 h5 a6 h6 a7 h7 a8 h8 hc1 hc2 hc3 x0 x1 x2 x3 x4 xn xd).1) = k0_pay4 (k0_pay10 x0 x1 x3 x2 x4) xn := by
  rw [View.read_writes_eq_canon _ _ _ (coverB_num c i a1 h1 a2 h2 a3 h3 a4 h4 a5 h5 a6 h6 a7 h7 a8 h8 hc1 hc2 hc3 x0 x1 x2 x3 x4 xn xd)]
  unfold kernelRunB
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Middle point, weight-total scratch: what it held plus the point's total of weights. -/
theorem coverB_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) (y : S32x128.Idx) :
    ∃ pc ∈ (kernelRunB c i a1 h1 a2 h2 a3 h3 a4 h4 a5 h5 a6 h6 a7 h7 a8 h8 hc1 hc2 hc3 x0 x1 x2 x3 x4 xn xd).2.1, y ∈ pc.1.set :=
  View.cover_of_tiledL (kernelRunB c i a1 h1 a2 h2 a3 h3 a4 h4 a5 h5 a6 h6 a7 h7 a8 h8 hc1 hc2 hc3 x0 x1 x2 x3 x4 xn xd).2.1 S32x128.size (by sl_kernel_rfl) y

theorem readB_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    VW.read (Elt F) (VW.writes (Elt F) VW.junk (kernelRunB c i a1 h1 a2 h2 a3 h3 a4 h4 a5 h5 a6 h6 a7 h7 a8 h8 hc1 hc2 hc3 x0 x1 x2 x3 x4 xn xd).2.1) = k0_pay5 (k0_pay11 x0 x1 x2) xd := by
  rw [View.read_writes_eq_canon _ _ _ (coverB_den c i a1 h1 a2 h2 a3 h3 a4 h4 a5 h5 a6 h6 a7 h7 a8 h8 hc1 hc2 hc3 x0 x1 x2 x3 x4 xn xd)]
  unfold kernelRunB
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, weighted-sum scratch: as at a middle point. -/
theorem coverC_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).2.1, y ∈ pc.1.set :=
  View.cover_of_tiledL (kernelRunC c i a1 h1 a2 h2 a3 h3 a4 h4 a5 h5 a6 h6 a7 h7 a8 h8 hc1 hc2 hc3 x0 x1 x2 x3 x4 xn xd).2.1 S32x128.size (by sl_kernel_rfl) y

theorem readC_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).2.1) = k0_pay4 (k0_pay10 x0 x1 x3 x2 x4) xn := by
  rw [View.read_writes_eq_canon _ _ _ (coverC_num c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, weight-total scratch: as at a middle point. -/
theorem coverC_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).2.2.1, y ∈ pc.1.set :=
  View.cover_of_tiledL (kernelRunC c i a1 h1 a2 h2 a3 h3 a4 h4 a5 h5 a6 h6 a7 h7 a8 h8 hc1 hc2 hc3 x0 x1 x2 x3 x4 xn xd).2.2.1 S32x128.size (by sl_kernel_rfl) y

theorem readC_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).2.2.1) = k0_pay5 (k0_pay11 x0 x1 x2) xd := by
  rw [View.read_writes_eq_canon _ _ _ (coverC_den c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, result buffer: the quotient of the two scratch contents just stored (the body reads them back). -/
theorem coverC_out (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).1, y ∈ pc.1.set :=
  View.cover_of_tiledL (kernelRunC c i a1 h1 a2 h2 a3 h3 a4 h4 a5 h5 a6 h6 a7 h7 a8 h8 hc1 hc2 hc3 x0 x1 x2 x3 x4 xn xd).1 S32x128.size (by sl_kernel_rfl) y

theorem readC_out (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).1) = k0_pay6 (k0_pay4 (k0_pay10 x0 x1 x3 x2 x4) xn) (k0_pay5 (k0_pay11 x0 x1 x2) xd) := by
  rw [View.read_writes_eq_canon _ _ _ (coverC_out c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]
  rw [View.readCov_unit_zero (S := S32x128) a7.view hz, View.readCov_unit_zero (S := S32x128) a8.view hz]

end Cert.Kernel.Hand

end
-- ==== Proof.KBFrame.lean ====
/-
  The attention kernel's launch, part 2: what the scratch buffers and the result hold, point by point, and the body's
  obligation.

  At point `t` the body forms, from the query block and that point's two key blocks and two value blocks, the
  point's weighted sum of value rows (a [32, 128] array) and its total of weights (a [32, 1] column). The first scratch
  buffer holds the running weighted sum: after point 0 the point's sum, after point `n + 1` what it held plus that
  point's sum. The second holds the running total of weights, spread along each row, by the same recursion. The
  result window's buffer is written at the last point only, with the quotient of the two scratch contents there;
  before, the body hands it back as it found it. The region's invariant is the two scratch buffers: at anything
  before point 0, at these contents after each point.
-/
import proofs.«142354_g77575699301056_cont_9to1_m_582_14_alg».proof.Proof.KBPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's sums and the running totals -/

/-- The weighted sum of value rows the body forms at point `t`. -/
def ptNum (c : Dev nD) (t : Fin cfg0.N) : FVec F S32x128 .f32 :=
  k0_pay10 (iblk m c 0 t) (iblk m c 1 t) (iblk m c 3 t) (iblk m c 2 t) (iblk m c 4 t)
/-- The total of weights, per query row, the body forms at point `t`. -/
def ptDen (c : Dev nD) (t : Fin cfg0.N) : FVec F S32x1 .f32 :=
  k0_pay11 (iblk m c 0 t) (iblk m c 1 t) (iblk m c 2 t)

/-- What the two scratch buffers hold after the body at position `n`: the running weighted sum and the running
    total of weights. -/
def scrAt (c : Dev nD) : (n : ℕ) → n < cfg0.N → Vec F S32x128 .f32 × Vec F S32x128 .f32
  | 0, hn => (k0_pay2 (ptNum m c ⟨0, hn⟩), k0_pay3 (ptDen m c ⟨0, hn⟩))
  | n + 1, hn => (k0_pay4 (ptNum m c ⟨n + 1, hn⟩) (scrAt c n (Nat.lt_of_succ_lt hn)).1,
                  k0_pay5 (ptDen m c ⟨n + 1, hn⟩) (scrAt c n (Nat.lt_of_succ_lt hn)).2)

theorem scrAt_first (c : Dev nD) (t : Fin cfg0.N) (hz : t.val = 0) :
    scrAt m c t.val t.isLt = (k0_pay2 (ptNum m c t), k0_pay3 (ptDen m c t)) := by
  obtain ⟨n, hn⟩ := t
  cases n with
  | zero => rfl
  | succ n => exact absurd hz (Nat.succ_ne_zero n)

theorem scrAt_later (c : Dev nD) (t : Fin cfg0.N) (hz : t.val ≠ 0) :
    scrAt m c t.val t.isLt = (k0_pay4 (ptNum m c t) (scrAt m c (t.val - 1) (Nat.lt_of_le_of_lt (Nat.sub_le _ _) t.isLt)).1, k0_pay5 (ptDen m c t) (scrAt m c (t.val - 1) (Nat.lt_of_le_of_lt (Nat.sub_le _ _) t.isLt)).2) := by
  obtain ⟨n, hn⟩ := t
  cases n with
  | zero => exact absurd rfl hz
  | succ n => rfl

/-! ## The region's invariant -/

/-- Before position `n`: at the start the two scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scNum fullShare (scrAt m c n hn).1 ∗ owns (c : Thread nD τ) scDen fullShare (scrAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scNum fullShare (scrAt m c n hn).1 ∗ owns (c : Thread nD τ) scDen fullShare (scrAt m c n hn).2) := rfl

theorem PhiS_pos (c : Dev nD) (n : ℕ) (h : n ≤ cfg0.N) (hz : n ≠ 0) :
    PhiS m c n h = iprop(owns (c : Thread nD τ) scNum fullShare (scrAt m c (n - 1) (by omega)).1 ∗ owns (c : Thread nD τ) scDen fullShare (scrAt m c (n - 1) (by omega)).2) := by
  cases n with
  | zero => exact absurd rfl hz
  | succ n => rfl

/-! ## The proof data -/

/-- The pipeline's proof data on core `c`: the arrays as the region finds them; after the body each input's buffer
    at its block and the result's at the quotient of the scratch contents (read at the last point only); the
    invariant above; the keys and the values, each read by two windows, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (scrAt m c t.val t.isLt).1 (scrAt m c t.val t.isLt).2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = k0_pay6 (scrAt m c t.val t.isLt).1 (scrAt m c t.val t.isLt).2 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Its inputs' buffers hold their blocks; the point's position says which of the three
    cases it is in; the invariant hands the body the scratch buffers at what the point before left (at anything at
    point 0) and takes them back at this point's contents; the result buffer is handed back untouched before the last
    point and holds the quotient after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · have hl : t.val ≠ 99 := by omega
    rw [Dat.leavesExact_idle (dats m 0 c) 5 t (idle_out t hl) (noFlush_out t hl)]
    rw [scrAt_first m c t hz]
    rw [PhiS_castSucc m c t, PhiS_zero m c _ _ hz, scoped_eq]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunA c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%e0, HS0⟩, ⟨%e1, HS1⟩⟩
    isplitl [HS0 HS1]
    · isplitl [HS0]
      · unfold owns; iexists _; isplitr
        swap; · iexact HS0
        ipureintro; exact (View.read_writes_of_cover _ _ _ _ _ (coverA_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))).trans (readA_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))
      · unfold owns; iexists _; isplitr
        swap; · iexact HS1
        ipureintro; exact (View.read_writes_of_cover _ _ _ _ _ (coverA_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))).trans (readA_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))
    isplitl [Ho]; · iexact Ho
    isplitl [H0]; · iexact H0
    isplitl [H1]; · iexact H1
    isplitl [H2]; · iexact H2
    isplitl [H3]; · iexact H3
    isplitl [H4]; · iexact H4
    iexists _; iexact H5
  · by_cases hl : t.val = 99
    · rw [show (dats m 0 c).leavesExact 5 t = owns (c : Thread nD τ) (ms5 t) fullShare ((dats m 0 c).after 5 t) from by
        unfold Dat.leavesExact; rw [live_out t hl], after5]
      rw [scrAt_later m c t hz]
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRunC c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e0, HS0⟩, ⟨%e1, HS1⟩⟩
      isplitl [HS0 HS1]
      · isplitl [HS0]
        · unfold owns; iexists _; isplitr
          swap; · iexact HS0
          ipureintro; exact (View.read_writes_of_cover _ _ _ _ _ (coverC_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
        · unfold owns; iexists _; isplitr
          swap; · iexact HS1
          ipureintro; exact (View.read_writes_of_cover _ _ _ _ _ (coverC_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (View.read_writes_of_cover _ _ _ _ _ (coverC_out c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_out c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
    · rw [Dat.leavesExact_idle (dats m 0 c) 5 t (idle_out t hl) (noFlush_out t hl)]
      rw [scrAt_later m c t hz]
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1]
      · isplitl [HS0]
        · unfold owns; iexists _; isplitr
          swap; · iexact HS0
          ipureintro; exact (View.read_writes_of_cover _ _ _ _ _ (coverB_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)).trans (readB_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)
        · unfold owns; iexists _; isplitr
          swap; · iexact HS1
          ipureintro; exact (View.read_writes_of_cover _ _ _ _ _ (coverB_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)).trans (readB_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega), scoped_eq]
  iintro ⟨HS0, HS1⟩
  isplitl [HS0]
  · iexists _; iexact HS0
  iexists _; iexact HS1

end Cert.Kernel.Hand

end
-- ==== Proof.KBSplit.lean ====
/-
  The attention kernel's launch, part 2: how the arrays are shared out among the windows.

  Six windows look at four arrays: one at the queries, two at the keys, two at the values, one at the result. When the
  region is entered the core holds each of the four buffers whole, at the full share. The windows' holdings are
  stated window by window, so the keys' and the values' points-tos are each cut in two along the share: the left half
  of the full share for the first window on the array, the right half for the second; both halves carry the same
  contents. The queries' and the result's points-tos pass through unchanged.
-/
import proofs.«142354_g77575699301056_cont_9to1_m_582_14_alg».proof.Proof.KBKit
import proofs.«142354_g77575699301056_cont_9to1_m_582_14_alg».proof.Proof.Gen.Kernel.Launch
import proofs.«142354_g77575699301056_cont_9to1_m_582_14_alg».proof.Proof.Gen.Kernel.Skeleton
import proofs.«142354_g77575699301056_cont_9to1_m_582_14_alg».proof.Proof.Gen.Kernel.Points
import Idealize.ShloMosaic.Lib.Pipeline.FrameBody
import Idealize.ShloMosaic.Lib.Pipeline.FrameSuffix
import Idealize.ShloMosaic.Lib.Pipeline.Launch
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the six windows' arrays: the queries, the keys, the values, the result. -/
theorem arrRef_image : Finset.univ.image (Pipeline.arrRef spec0) = {main_arg0, main_arg1, main_arg2, main_v0} := by decide

/-- The buffers behind the arrays, each whole at the full share, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_v0) ↦{fullShare} Vc main_v0)) := by
  unfold Pipeline.arrBufs
  rw [arrRef_image, bigSep_insert (by decide), bigSep_insert (by decide), bigSep_insert (by decide), bigSep_singleton]
  rfl

/-- The six windows' arrays as the proof data holds them, one by one: the queries and the result whole, the keys and
    the values each as a left and a right half of the full share. -/
theorem arrays_eq_shared {c : Dev nD} (dat : Dat τ (Elt F) Unit ℕ (UR sig nD τ) ℕ cfg0 c)
    (hq0 : dat.q 0 = fullShare) (hq1 : dat.q 1 = fullShare.left) (hq2 : dat.q 2 = fullShare.right)
    (hq3 : dat.q 3 = fullShare.left) (hq4 : dat.q 4 = fullShare.right)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat.arrays Fw : sProp 𝕄)
      = iprop((((c : Thread nD τ).loc main_arg0) ↦{fullShare} Vc main_arg0)
          ∗ (((c : Thread nD τ).loc main_arg1) ↦{fullShare.left} Vc main_arg1) ∗ (((c : Thread nD τ).loc main_arg1) ↦{fullShare.right} Vc main_arg1)
          ∗ (((c : Thread nD τ).loc main_arg2) ↦{fullShare.left} Vc main_arg2) ∗ (((c : Thread nD τ).loc main_arg2) ↦{fullShare.right} Vc main_arg2)
          ∗ (((c : Thread nD τ).loc main_v0) ↦{fullShare} Vc main_v0)) := by
  unfold Dat.arrays
  rw [bigSep_W0]

  have e0 : ((cfg0.win 0).arr.view.loc (c : Thread nD τ) ↦[(cfg0.win 0).arr.view.set]{dat.share 0} Fw 0 : sProp 𝕄)
      = (((c : Thread nD τ).loc main_arg0) ↦{fullShare} Vc main_arg0) := by
    rw [show (cfg0.win 0).arr.view.set = Finset.univ from (arr_whole0 0).set_eq_univ, hF 0,
      show dat.share 0 = fullShare from by unfold Dat.share; rw [hq0]; rfl]

  have e1 : ((cfg0.win 1).arr.view.loc (c : Thread nD τ) ↦[(cfg0.win 1).arr.view.set]{dat.share 1} Fw 1 : sProp 𝕄)
      = (((c : Thread nD τ).loc main_arg1) ↦{fullShare.left} Vc main_arg1) := by
    rw [show (cfg0.win 1).arr.view.set = Finset.univ from (arr_whole0 1).set_eq_univ, hF 1,
      show dat.share 1 = fullShare.left from by unfold Dat.share; rw [hq1]; rfl]

  have e2 : ((cfg0.win 2).arr.view.loc (c : Thread nD τ) ↦[(cfg0.win 2).arr.view.set]{dat.share 2} Fw 2 : sProp 𝕄)
      = (((c : Thread nD τ).loc main_arg1) ↦{fullShare.right} Vc main_arg1) := by
    rw [show (cfg0.win 2).arr.view.set = Finset.univ from (arr_whole0 2).set_eq_univ, hF 2,
      show dat.share 2 = fullShare.right from by unfold Dat.share; rw [hq2]; rfl]

  have e3 : ((cfg0.win 3).arr.view.loc (c : Thread nD τ) ↦[(cfg0.win 3).arr.view.set]{dat.share 3} Fw 3 : sProp 𝕄)
      = (((c : Thread nD τ).loc main_arg2) ↦{fullShare.left} Vc main_arg2) := by
    rw [show (cfg0.win 3).arr.view.set = Finset.univ from (arr_whole0 3).set_eq_univ, hF 3,
      show dat.share 3 = fullShare.left from by unfold Dat.share; rw [hq3]; rfl]

  have e4 : ((cfg0.win 4).arr.view.loc (c : Thread nD τ) ↦[(cfg0.win 4).arr.view.set]{dat.share 4} Fw 4 : sProp 𝕄)
      = (((c : Thread nD τ).loc main_arg2) ↦{fullShare.right} Vc main_arg2) := by
    rw [show (cfg0.win 4).arr.view.set = Finset.univ from (arr_whole0 4).set_eq_univ, hF 4,
      show dat.share 4 = fullShare.right from by unfold Dat.share; rw [hq4]; rfl]

  have e5 : ((cfg0.win 5).arr.view.loc (c : Thread nD τ) ↦[(cfg0.win 5).arr.view.set]{dat.share 5} Fw 5 : sProp 𝕄)
      = (((c : Thread nD τ).loc main_v0) ↦{fullShare} Vc main_v0) := by
    rw [show (cfg0.win 5).arr.view.set = Finset.univ from (arr_whole0 5).set_eq_univ, hF 5,
      show dat.share 5 = fullShare from rfl]
  rw [e0, e1, e2, e3, e4, e5]

/-- The launch's split when windows share an array: the four distinct buffers, each whole at the full share, make the
    six windows' arrays, the keys' and the values' points-tos each cut into a left and a right half. -/
theorem arrays_split_shared {c : Dev nD} (dat : Dat τ (Elt F) Unit ℕ (UR sig nD τ) ℕ cfg0 c)
    (hq0 : dat.q 0 = fullShare) (hq1 : dat.q 1 = fullShare.left) (hq2 : dat.q 2 = fullShare.right)
    (hq3 : dat.q 3 = fullShare.left) (hq4 : dat.q 4 = fullShare.right)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs (Ix := Unit) (Name := ℕ) (U := UR sig nD τ) (Lvl := ℕ) spec0 c Vc : sProp 𝕄) ⊢ dat.arrays Fw := by
  rw [arrBufs_eq, arrays_eq_shared dat hq0 hq1 hq2 hq3 hq4 Vc Fw hF]
  iintro ⟨H0, H1, H2, H5⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  isplitl [H0]; · iexact H0
  isplitl [H1a]; · iexact H1a
  isplitl [H1b]; · iexact H1b
  isplitl [H2a]; · iexact H2a
  isplitl [H2b]; · iexact H2b
  iexact H5

end Cert.Kernel.Hand

end
-- ==== Proof.KBLaunch.lean ====
/-
  The attention kernel's launch, part 3: the run.

  The pipeline is launched with its six windows on four arrays: the query array and the result array have one
  window each; the keys and the values have two each, which read them through half shares. With the body's
  obligation at every point and the two scratch buffers as the region's invariant, every weakly fair execution of
  @main terminates, the three argument arrays end as they began (no window writes them), and the result array ends
  holding the one block written back, at the last point: the quotient of the two running totals.
-/
import proofs.«142354_g77575699301056_cont_9to1_m_582_14_alg».proof.Proof.KBFrame
import proofs.«142354_g77575699301056_cont_9to1_m_582_14_alg».proof.Proof.KBSplit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the compiled mesh, from any memory with zero counters, every weakly fair execution of @main terminates and
    ends with every windowed array at what the write-backs made of it — given how the distinct array buffers are
    dealt among the windows at entry (`hsplit`: the keys and the values are each read by two windows). -/
theorem run_main_of
    (hsplit : ∀ c : Dev nD, (Pipeline.arrBufs (Ix := Unit) (Name := ℕ) (U := UR sig nD τ) (Lvl := ℕ) spec0 c (V m c) : sProp 𝕄)
      ⊢ (dats m 0 c).arrays ((dats m 0 c).arrAt · 0)) :
    θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := Rounds.initOf (Pipeline.cells cfgs cellOf_inj) (Pipeline.launchToks cfgs cellOf_inj)) (hu₀ := .rfl)
    (V := V m) (hmain := hmain m Variants.none)
    (hsplit := hsplit)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun _ _ => True)
    (hY := fun c s' => by
      iintro ⟨-, -, HSI⟩
      imodintro
      isplitr; · ipureintro; trivial
      iexact HSI)
    (hQ := fun s h c w => (h c).1 w)

/-- The run: the six windows' arrays dealt at entry as the proof data says — the query and result arrays whole, the
    keys and the values by halves. -/
theorem run_main : θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  run_main_of m ρ (fun c => arrays_split_shared (dats m 0 c) rfl rfl rfl rfl rfl (V m c) _ (fun w => A_eq m c w))

/-- The same run read at the program's own names: the result array is what the write-backs made of it, and the
    three argument arrays, which only input windows touch, end as they began. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c 5,
     (h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

/-- The frame: the program runs to the end and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KIKit.lean ====
/-
  The attention kernel's launch, part 1: what every grid point finds.

  The region is entered with the three argument arrays as @main received them (no host operation comes first).
  The query window shows the whole [32, 128] array at every point (its block index never moves, so it is fetched
  once); each of the four memory windows shows, at point `t`, one block of 5,000 rows of the keys or the values
  (blocks `2t` and `2t + 1`, fetched afresh at every point). Whatever the buffering, the staging buffer the body
  is handed holds exactly that block. The body's three conditionals depend on the point alone: the first is taken
  at point 0 only, the second at every other point, the third at the last point, 99, only; the result window is
  stored into, and written back, at point 99 and is left alone before.
-/
import proofs.«142354_g77575699301056_cont_9to1_m_582_14_alg».proof.Proof.Gen.KernelIdeal.Launch
import proofs.«142354_g77575699301056_cont_9to1_m_582_14_alg».proof.Proof.Gen.KernelIdeal.Skeleton
import proofs.«142354_g77575699301056_cont_9to1_m_582_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: what @main was started with. -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry one and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, point by point -/

/-- "This is point 0": the first conditional's test, from the grid coordinate. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is not point 0": the second conditional's test. -/
abbrev condLater (i : grid0.Coords) : Prop := (Scalar.cmpi .ne (Scalar.extui (Scalar.cmpi .ne (BitVec.ofNat 32 (i 0).val) 0#32)) 0#32) = 1#1
theorem hcondLater : ∀ t : Fin cfg0.N, condLater (grid0.coords t) ↔ t.val ≠ 0 :=
  (by decide +kernel : ∀ t : Fin grid0.N, condLater (grid0.coords t) ↔ t.val ≠ 0)

/-- "This is point 99": the third conditional's test. -/
abbrev condLast (i : grid0.Coords) : Prop := k0_cond3 i = 1#1
theorem hcondLast : ∀ t : Fin cfg0.N, condLast (grid0.coords t) ↔ t.val = 99 :=
  (by decide +kernel : ∀ t : Fin grid0.N, condLast (grid0.coords t) ↔ t.val = 99)

/-! ## Where the result window is idle -/

/-- Before the last point the result window is idle and not written back. -/
theorem idle_out : ∀ t : Fin cfg0.N, t.val ≠ 99 → cfg0.idle 5 (grid0.coords t) = true := by decide +kernel
theorem noFlush_out : ∀ t : Fin cfg0.N, t.val ≠ 99 → (cfg0.win 5).flush t = false := by decide +kernel
/-- At the last point it is live, and written back. -/
theorem live_out : ∀ t : Fin cfg0.N, t.val = 99 → cfg0.idle 5 (grid0.coords t) = false := by decide +kernel
theorem flush_out : ∀ t : Fin cfg0.N, t.val = 99 → (cfg0.win 5).flush t = true := by decide +kernel

/-! ## The memrefs the body is called with -/

abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S5000x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x128 .f32 := win0_5.stage (cfg0.slots t 5)
abbrev hs5 (t : Fin cfg0.N) : (ms5 t).IsWhole := hstage0_5 ((cfg0.slots t 5).cast nbuf0_5)
/-- The two scratch buffers: the running weighted sum and the running total of weights. -/
abbrev scNum : Memref sig .tc .vmem S32x128 .f32 := Memref.whole cc0_scratch0
abbrev scDen : Memref sig .tc .vmem S32x128 .f32 := Memref.whole cc0_scratch1
/-- One view of shape [32, 128] through which contents are stated (which one does not matter). -/
abbrev VW : View sig .tc .vmem S32x128 .f32 := scNum.view

/-- The core's scoped buffers the pipeline does not stage are the two scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scNum fullShare d) ∗ (∃ d, owns (c : Thread nD τ) scDen fullShare d)) := by
  rw [scopedRest0_eq]; simp only [scNum, scDen, owns_whole]; try rfl

end Cert.KernelIdeal.Hand

end
-- ==== Proof.KIRunA.lean ====
/-
  The attention kernel's body at the FIRST grid point. Only the first conditional is taken: the body computes the
  point's weighted sum of value rows and its total of weights from the query block and the four memory blocks, and
  stores them into the two scratch buffers, whatever those held; the result window's buffer is not touched.
-/
import proofs.«142354_g77575699301056_cont_9to1_m_582_14_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the stores of the first point leave in the two scratch buffers, as the pieces the run finds, with the proof
    that from the five input buffers at their contents, the result buffer at `xo` and the scratch buffers at anything,
    the body runs to the continuation holding the inputs and the result buffer as they were and each scratch buffer
    with its pieces written. -/
noncomputable def kernelRunA (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    Σ' (LN : List (View.Piece (Elt F) S32x128 .f32)), { LD : List (View.Piece (Elt F) S32x128 .f32) //
      ∀ (xo : Vec F S32x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo
            ∗ (∃ d, owns (c : Thread nD τ) a7 fullShare d) ∗ (∃ d, owns (c : Thread nD τ) a8 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.KernelIdeal.Hand

end
-- ==== Proof.KIRunB.lean ====
/-
  The attention kernel's body at a MIDDLE grid point (neither the first nor the last). Only the second conditional is
  taken: the body computes the point's weighted sum and total of weights from its blocks and ADDS them to what the
  two scratch buffers hold from the point before; the result window's buffer is not touched.
-/
import proofs.«142354_g77575699301056_cont_9to1_m_582_14_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the stores of a middle point leave in the two scratch buffers, as the pieces the run finds, with the proof
    that from the five input buffers at their contents, the result buffer at `xo` and the scratch buffers at what the
    point before left (`xn`, `xd`), the body runs to the continuation holding the inputs and the result buffer as they
    were and each scratch buffer with its pieces written. -/
noncomputable def kernelRunB (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    Σ' (LN : List (View.Piece (Elt F) S32x128 .f32)), { LD : List (View.Piece (Elt F) S32x128 .f32) //
      ∀ (xo : Vec F S32x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo
            ∗ owns (c : Thread nD τ) a7 fullShare xn ∗ owns (c : Thread nD τ) a8 fullShare xd
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare xo ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.KernelIdeal.Hand

end
-- ==== Proof.KIRunC.lean ====
/-
  The attention kernel's body at the LAST grid point. The second and third conditionals are taken: the body adds the
  point's weighted sum and total of weights to the two scratch buffers as at a middle point, then reads both back and
  stores their quotient into the result window's buffer, whatever that held.
-/
import proofs.«142354_g77575699301056_cont_9to1_m_582_14_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the stores of the last point leave in the result buffer and the two scratch buffers, as the pieces the run
    finds, with the proof that from the five input buffers at their contents, the result buffer at anything and the
    scratch buffers at what the point before left (`xn`, `xd`), the body runs to the continuation holding the inputs
    as they were and the other three buffers with their pieces written. -/
noncomputable def kernelRunC (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    Σ' (LO : List (View.Piece (Elt F) S32x128 .f32)) (LN : List (View.Piece (Elt F) S32x128 .f32)), { LD : List (View.Piece (Elt F) S32x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d)
            ∗ owns (c : Thread nD τ) a7 fullShare xn ∗ owns (c : Thread nD τ) a8 fullShare xd
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ f, a6.view.loc (c : Thread nD τ) ↦[a6.view.set]{fullShare} a6.view.writes (Elt F) f LO) ∗ (∃ f, a7.view.loc (c : Thread nD τ) ↦[a7.view.set]{fullShare} a7.view.writes (Elt F) f LN) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, ?_, fun E K => ?run⟩
  case run =>
    simp only [cc0__attn_kernel_eq_skeleton]; unfold cc0__attn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h5.eq_unread hf5; obtain rfl := h7.eq_unread hf7; obtain rfl := h8.eq_unread hf8
    sl_exec (disch := first | exact hc1 | exact hc2 | exact hc3)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Hand

end
-- ==== Proof.KIPieces.lean ====
/-
  What the attention kernel's stores leave behind, case by case, as the payloads the body computes.

  Every store of the body writes a whole [32, 128] buffer, so the pieces a run found cover the buffer, and reading
  them back gives the stored value. At the first point the two scratch buffers take the point's weighted sum of
  value rows and its total of weights (the total spread along the row); at every later point they take what they held
  plus those; at the last point the result buffer takes the quotient of the two NEW scratch contents. The point's
  sums are functions of the query block, the two key blocks and the two value blocks the body loaded.
-/
import proofs.«142354_g77575699301056_cont_9to1_m_582_14_alg».proof.Proof.KIRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The literal offset of every access of the body is the origin. -/
theorem hz : (![0, 0] : Fin 2 → Nat) = fun _ => 0 := funext fun a => by fin_cases a <;> rfl

/-- First point, weighted-sum scratch: its one store covers it, and holds the point's weighted sum. -/
theorem coverA_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) (y : S32x128.Idx) :
    ∃ pc ∈ (kernelRunA c i a1 h1 a2 h2 a3 h3 a4 h4 a5 h5 a6 h6 a7 h7 a8 h8 hc1 hc2 hc3 x0 x1 x2 x3 x4).1, y ∈ pc.1.set :=
  View.cover_of_tiledL (kernelRunA c i a1 h1 a2 h2 a3 h3 a4 h4 a5 h5 a6 h6 a7 h7 a8 h8 hc1 hc2 hc3 x0 x1 x2 x3 x4).1 S32x128.size (by sl_kernel_rfl) y

theorem readA_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    VW.read (Elt F) (VW.writes (Elt F) VW.junk (kernelRunA c i a1 h1 a2 h2 a3 h3 a4 h4 a5 h5 a6 h6 a7 h7 a8 h8 hc1 hc2 hc3 x0 x1 x2 x3 x4).1) = k0_pay2 (k0_pay10 x0 x1 x3 x2 x4) := by
  rw [View.read_writes_eq_canon _ _ _ (coverA_num c i a1 h1 a2 h2 a3 h3 a4 h4 a5 h5 a6 h6 a7 h7 a8 h8 hc1 hc2 hc3 x0 x1 x2 x3 x4)]
  unfold kernelRunA
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- First point, weight-total scratch: its one store covers it, and holds the point's total of weights along each row. -/
theorem coverA_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) (y : S32x128.Idx) :
    ∃ pc ∈ (kernelRunA c i a1 h1 a2 h2 a3 h3 a4 h4 a5 h5 a6 h6 a7 h7 a8 h8 hc1 hc2 hc3 x0 x1 x2 x3 x4).2.1, y ∈ pc.1.set :=
  View.cover_of_tiledL (kernelRunA c i a1 h1 a2 h2 a3 h3 a4 h4 a5 h5 a6 h6 a7 h7 a8 h8 hc1 hc2 hc3 x0 x1 x2 x3 x4).2.1 S32x128.size (by sl_kernel_rfl) y

theorem readA_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : condFirst i) (hc2 : ¬condLater i) (hc3 : ¬condLast i)
    (x0 : Vec F S32x128 .f32) (x1 x2 x3 x4 : Vec F S5000x128 .f32) :
    VW.read (Elt F) (VW.writes (Elt F) VW.junk (kernelRunA c i a1 h1 a2 h2 a3 h3 a4 h4 a5 h5 a6 h6 a7 h7 a8 h8 hc1 hc2 hc3 x0 x1 x2 x3 x4).2.1) = k0_pay3 (k0_pay11 x0 x1 x2) := by
  rw [View.read_writes_eq_canon _ _ _ (coverA_den c i a1 h1 a2 h2 a3 h3 a4 h4 a5 h5 a6 h6 a7 h7 a8 h8 hc1 hc2 hc3 x0 x1 x2 x3 x4)]
  unfold kernelRunA
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Middle point, weighted-sum scratch: what it held plus the point's weighted sum. -/
theorem coverB_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) (y : S32x128.Idx) :
    ∃ pc ∈ (kernelRunB c i a1 h1 a2 h2 a3 h3 a4 h4 a5 h5 a6 h6 a7 h7 a8 h8 hc1 hc2 hc3 x0 x1 x2 x3 x4 xn xd).1, y ∈ pc.1.set :=
  View.cover_of_tiledL (kernelRunB c i a1 h1 a2 h2 a3 h3 a4 h4 a5 h5 a6 h6 a7 h7 a8 h8 hc1 hc2 hc3 x0 x1 x2 x3 x4 xn xd).1 S32x128.size (by sl_kernel_rfl) y

theorem readB_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    VW.read (Elt F) (VW.writes (Elt F) VW.junk (kernelRunB c i a1 h1 a2 h2 a3 h3 a4 h4 a5 h5 a6 h6 a7 h7 a8 h8 hc1 hc2 hc3 x0 x1 x2 x3 x4 xn xd).1) = k0_pay4 (k0_pay10 x0 x1 x3 x2 x4) xn := by
  rw [View.read_writes_eq_canon _ _ _ (coverB_num c i a1 h1 a2 h2 a3 h3 a4 h4 a5 h5 a6 h6 a7 h7 a8 h8 hc1 hc2 hc3 x0 x1 x2 x3 x4 xn xd)]
  unfold kernelRunB
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Middle point, weight-total scratch: what it held plus the point's total of weights. -/
theorem coverB_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) (y : S32x128.Idx) :
    ∃ pc ∈ (kernelRunB c i a1 h1 a2 h2 a3 h3 a4 h4 a5 h5 a6 h6 a7 h7 a8 h8 hc1 hc2 hc3 x0 x1 x2 x3 x4 xn xd).2.1, y ∈ pc.1.set :=
  View.cover_of_tiledL (kernelRunB c i a1 h1 a2 h2 a3 h3 a4 h4 a5 h5 a6 h6 a7 h7 a8 h8 hc1 hc2 hc3 x0 x1 x2 x3 x4 xn xd).2.1 S32x128.size (by sl_kernel_rfl) y

theorem readB_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : ¬condLast i)
    (x0 : Vec F S32x128 .f32) (x1 x2 x3 x4 : Vec F S5000x128 .f32) (xn xd : Vec F S32x128 .f32) :
    VW.read (Elt F) (VW.writes (Elt F) VW.junk (kernelRunB c i a1 h1 a2 h2 a3 h3 a4 h4 a5 h5 a6 h6 a7 h7 a8 h8 hc1 hc2 hc3 x0 x1 x2 x3 x4 xn xd).2.1) = k0_pay5 (k0_pay11 x0 x1 x2) xd := by
  rw [View.read_writes_eq_canon _ _ _ (coverB_den c i a1 h1 a2 h2 a3 h3 a4 h4 a5 h5 a6 h6 a7 h7 a8 h8 hc1 hc2 hc3 x0 x1 x2 x3 x4 xn xd)]
  unfold kernelRunB
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, weighted-sum scratch: as at a middle point. -/
theorem coverC_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).2.1, y ∈ pc.1.set :=
  View.cover_of_tiledL (kernelRunC c i a1 h1 a2 h2 a3 h3 a4 h4 a5 h5 a6 h6 a7 h7 a8 h8 hc1 hc2 hc3 x0 x1 x2 x3 x4 xn xd).2.1 S32x128.size (by sl_kernel_rfl) y

theorem readC_num (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).2.1) = k0_pay4 (k0_pay10 x0 x1 x3 x2 x4) xn := by
  rw [View.read_writes_eq_canon _ _ _ (coverC_num c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, weight-total scratch: as at a middle point. -/
theorem coverC_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).2.2.1, y ∈ pc.1.set :=
  View.cover_of_tiledL (kernelRunC c i a1 h1 a2 h2 a3 h3 a4 h4 a5 h5 a6 h6 a7 h7 a8 h8 hc1 hc2 hc3 x0 x1 x2 x3 x4 xn xd).2.2.1 S32x128.size (by sl_kernel_rfl) y

theorem readC_den (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).2.2.1) = k0_pay5 (k0_pay11 x0 x1 x2) xd := by
  rw [View.read_writes_eq_canon _ _ _ (coverC_den c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]

/-- Last point, result buffer: the quotient of the two scratch contents just stored (the body reads them back). -/
theorem coverC_out (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) (y : S32x128.Idx) :
    ∃ pc ∈ (kernelRunC c i a1 h1 a2 h2 a3 h3 a4 h4 a5 h5 a6 h6 a7 h7 a8 h8 hc1 hc2 hc3 x0 x1 x2 x3 x4 xn xd).1, y ∈ pc.1.set :=
  View.cover_of_tiledL (kernelRunC c i a1 h1 a2 h2 a3 h3 a4 h4 a5 h5 a6 h6 a7 h7 a8 h8 hc1 hc2 hc3 x0 x1 x2 x3 x4 xn xd).1 S32x128.size (by sl_kernel_rfl) y

theorem readC_out (c : Dev nD) (i : grid0.Coords) (a1 : Memref sig .tc .vmem S32x128 .f32) (h1 : a1.IsWhole) (a2 : Memref sig .tc .vmem S5000x128 .f32) (h2 : a2.IsWhole) (a3 : Memref sig .tc .vmem S5000x128 .f32) (h3 : a3.IsWhole) (a4 : Memref sig .tc .vmem S5000x128 .f32) (h4 : a4.IsWhole) (a5 : Memref sig .tc .vmem S5000x128 .f32) (h5 : a5.IsWhole) (a6 : Memref sig .tc .vmem S32x128 .f32) (h6 : a6.IsWhole) (a7 : Memref sig .tc .vmem S32x128 .f32) (h7 : a7.IsWhole) (a8 : Memref sig .tc .vmem S32x128 .f32) (h8 : a8.IsWhole)
    (hc1 : ¬condFirst i) (hc2 : condLater i) (hc3 : condLast i)
    (x0 : Vec F S32x128 .f32) (x1 x2 x3 x4 : Vec F S5000x128 .f32) (xn xd : Vec F S32x128 .f32) :
    VW.read (Elt F) (VW.writes (Elt F) VW.junk (kernelRunC c i a1 h1 a2 h2 a3 h3 a4 h4 a5 h5 a6 h6 a7 h7 a8 h8 hc1 hc2 hc3 x0 x1 x2 x3 x4 xn xd).1) = k0_pay6 (k0_pay4 (k0_pay10 x0 x1 x3 x2 x4) xn) (k0_pay5 (k0_pay11 x0 x1 x2) xd) := by
  rw [View.read_writes_eq_canon _ _ _ (coverC_out c i a1 h1 a2 h2 a3 h3 a4 h4 a5 h5 a6 h6 a7 h7 a8 h8 hc1 hc2 hc3 x0 x1 x2 x3 x4 xn xd)]
  unfold kernelRunC
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S32x128) hz, View.ld_unit_zero (S := S5000x128) hz]
  rw [View.readCov_unit_zero (S := S32x128) a7.view hz, View.readCov_unit_zero (S := S32x128) a8.view hz]

end Cert.KernelIdeal.Hand

end
-- ==== Proof.KIFrame.lean ====
/-
  The attention kernel's launch, part 2: what the scratch buffers and the result hold, point by point, and the body's
  obligation.

  At point `t` the body forms, from the query block and that point's two key blocks and two value blocks, the
  point's weighted sum of value rows (a [32, 128] array) and its total of weights (a [32, 1] column). The first scratch
  buffer holds the running weighted sum: after point 0 the point's sum, after point `n + 1` what it held plus that
  point's sum. The second holds the running total of weights, spread along each row, by the same recursion. The
  result window's buffer is written at the last point only, with the quotient of the two scratch contents there;
  before, the body hands it back as it found it. The region's invariant is the two scratch buffers: at anything
  before point 0, at these contents after each point.
-/
import proofs.«142354_g77575699301056_cont_9to1_m_582_14_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The point's sums and the running totals -/

/-- The weighted sum of value rows the body forms at point `t`. -/
def ptNum (c : Dev nD) (t : Fin cfg0.N) : FVec F S32x128 .f32 :=
  k0_pay10 (iblk m c 0 t) (iblk m c 1 t) (iblk m c 3 t) (iblk m c 2 t) (iblk m c 4 t)
/-- The total of weights, per query row, the body forms at point `t`. -/
def ptDen (c : Dev nD) (t : Fin cfg0.N) : FVec F S32x1 .f32 :=
  k0_pay11 (iblk m c 0 t) (iblk m c 1 t) (iblk m c 2 t)

/-- What the two scratch buffers hold after the body at position `n`: the running weighted sum and the running
    total of weights. -/
def scrAt (c : Dev nD) : (n : ℕ) → n < cfg0.N → Vec F S32x128 .f32 × Vec F S32x128 .f32
  | 0, hn => (k0_pay2 (ptNum m c ⟨0, hn⟩), k0_pay3 (ptDen m c ⟨0, hn⟩))
  | n + 1, hn => (k0_pay4 (ptNum m c ⟨n + 1, hn⟩) (scrAt c n (Nat.lt_of_succ_lt hn)).1,
                  k0_pay5 (ptDen m c ⟨n + 1, hn⟩) (scrAt c n (Nat.lt_of_succ_lt hn)).2)

theorem scrAt_first (c : Dev nD) (t : Fin cfg0.N) (hz : t.val = 0) :
    scrAt m c t.val t.isLt = (k0_pay2 (ptNum m c t), k0_pay3 (ptDen m c t)) := by
  obtain ⟨n, hn⟩ := t
  cases n with
  | zero => rfl
  | succ n => exact absurd hz (Nat.succ_ne_zero n)

theorem scrAt_later (c : Dev nD) (t : Fin cfg0.N) (hz : t.val ≠ 0) :
    scrAt m c t.val t.isLt = (k0_pay4 (ptNum m c t) (scrAt m c (t.val - 1) (Nat.lt_of_le_of_lt (Nat.sub_le _ _) t.isLt)).1, k0_pay5 (ptDen m c t) (scrAt m c (t.val - 1) (Nat.lt_of_le_of_lt (Nat.sub_le _ _) t.isLt)).2) := by
  obtain ⟨n, hn⟩ := t
  cases n with
  | zero => exact absurd rfl hz
  | succ n => rfl

/-! ## The region's invariant -/

/-- Before position `n`: at the start the two scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scNum fullShare (scrAt m c n hn).1 ∗ owns (c : Thread nD τ) scDen fullShare (scrAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scNum fullShare (scrAt m c n hn).1 ∗ owns (c : Thread nD τ) scDen fullShare (scrAt m c n hn).2) := rfl

theorem PhiS_pos (c : Dev nD) (n : ℕ) (h : n ≤ cfg0.N) (hz : n ≠ 0) :
    PhiS m c n h = iprop(owns (c : Thread nD τ) scNum fullShare (scrAt m c (n - 1) (by omega)).1 ∗ owns (c : Thread nD τ) scDen fullShare (scrAt m c (n - 1) (by omega)).2) := by
  cases n with
  | zero => exact absurd rfl hz
  | succ n => rfl

/-! ## The proof data -/

/-- The pipeline's proof data on core `c`: the arrays as the region finds them; after the body each input's buffer
    at its block and the result's at the quotient of the scratch contents (read at the last point only); the
    invariant above; the keys and the values, each read by two windows, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (scrAt m c t.val t.isLt).1 (scrAt m c t.val t.isLt).2
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = k0_pay6 (scrAt m c t.val t.isLt).1 (scrAt m c t.val t.isLt).2 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Its inputs' buffers hold their blocks; the point's position says which of the three
    cases it is in; the invariant hands the body the scratch buffers at what the point before left (at anything at
    point 0) and takes them back at this point's contents; the result buffer is handed back untouched before the last
    point and holds the quotient after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · have hl : t.val ≠ 99 := by omega
    rw [Dat.leavesExact_idle (dats m 0 c) 5 t (idle_out t hl) (noFlush_out t hl)]
    rw [scrAt_first m c t hz]
    rw [PhiS_castSucc m c t, PhiS_zero m c _ _ hz, scoped_eq]
    iintro ⟨⟨HS0, HS1⟩, Ho, ⟨%d0, H0⟩, ⟨%d1, H1⟩, ⟨%d2, H2⟩, ⟨%d3, H3⟩, ⟨%d4, H4⟩, ⟨%d5, H5⟩⟩
    iapply ((kernelRunA c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%e0, HS0⟩, ⟨%e1, HS1⟩⟩
    isplitl [HS0 HS1]
    · isplitl [HS0]
      · unfold owns; iexists _; isplitr
        swap; · iexact HS0
        ipureintro; exact (View.read_writes_of_cover _ _ _ _ _ (coverA_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))).trans (readA_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))
      · unfold owns; iexists _; isplitr
        swap; · iexact HS1
        ipureintro; exact (View.read_writes_of_cover _ _ _ _ _ (coverA_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))).trans (readA_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) ((hcondFirst t).mpr hz) (fun h => (hcondLater t).mp h hz) (fun h => hl ((hcondLast t).mp h)) (iblk m c 0 t) (iblk m c 1 t) (iblk m c 2 t) (iblk m c 3 t) (iblk m c 4 t))
    isplitl [Ho]; · iexact Ho
    isplitl [H0]; · iexact H0
    isplitl [H1]; · iexact H1
    isplitl [H2]; · iexact H2
    isplitl [H3]; · iexact H3
    isplitl [H4]; · iexact H4
    iexists _; iexact H5
  · by_cases hl : t.val = 99
    · rw [show (dats m 0 c).leavesExact 5 t = owns (c : Thread nD τ) (ms5 t) fullShare ((dats m 0 c).after 5 t) from by
        unfold Dat.leavesExact; rw [live_out t hl], after5]
      rw [scrAt_later m c t hz]
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRunC c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e0, HS0⟩, ⟨%e1, HS1⟩⟩
      isplitl [HS0 HS1]
      · isplitl [HS0]
        · unfold owns; iexists _; isplitr
          swap; · iexact HS0
          ipureintro; exact (View.read_writes_of_cover _ _ _ _ _ (coverC_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
        · unfold owns; iexists _; isplitr
          swap; · iexact HS1
          ipureintro; exact (View.read_writes_of_cover _ _ _ _ _ (coverC_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (View.read_writes_of_cover _ _ _ _ _ (coverC_out c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)).trans (readC_out c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) ((hcondLast t).mpr hl) (iblk m c 0 t) (iblk m c 1 t) (iblk m c 2 t) (iblk m c 3 t) (iblk m c 4 t) _ _)
    · rw [Dat.leavesExact_idle (dats m 0 c) 5 t (idle_out t hl) (noFlush_out t hl)]
      rw [scrAt_later m c t hz]
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e0, HS0⟩, ⟨%e1, HS1⟩⟩
      isplitl [HS0 HS1]
      · isplitl [HS0]
        · unfold owns; iexists _; isplitr
          swap; · iexact HS0
          ipureintro; exact (View.read_writes_of_cover _ _ _ _ _ (coverB_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)).trans (readB_num c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)
        · unfold owns; iexists _; isplitr
          swap; · iexact HS1
          ipureintro; exact (View.read_writes_of_cover _ _ _ _ _ (coverB_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)).trans (readB_den c (grid0.coords t) (ms0 t) (hs0 t) (ms1 t) (hs1 t) (ms2 t) (hs2 t) (ms3 t) (hs3 t) (ms4 t) (hs4 t) (ms5 t) (hs5 t) scNum (Memref.isWhole_whole _) scDen (Memref.isWhole_whole _) (fun h => hz ((hcondFirst t).mp h)) ((hcondLater t).mpr hz) (fun h => hl ((hcondLast t).mp h)) (iblk m c 0 t) (iblk m c 1 t) (iblk m c 2 t) (iblk m c 3 t) (iblk m c 4 t) _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega), scoped_eq]
  iintro ⟨HS0, HS1⟩
  isplitl [HS0]
  · iexists _; iexact HS0
  iexists _; iexact HS1

end Cert.KernelIdeal.Hand

end
-- ==== Proof.KISplit.lean ====
/-
  The attention kernel's launch, part 2: how the arrays are shared out among the windows.

  Six windows look at four arrays: one at the queries, two at the keys, two at the values, one at the result. When the
  region is entered the core holds each of the four buffers whole, at the full share. The windows' holdings are
  stated window by window, so the keys' and the values' points-tos are each cut in two along the share: the left half
  of the full share for the first window on the array, the right half for the second; both halves carry the same
  contents. The queries' and the result's points-tos pass through unchanged.
-/
import proofs.«142354_g77575699301056_cont_9to1_m_582_14_alg».proof.Proof.KIKit
import proofs.«142354_g77575699301056_cont_9to1_m_582_14_alg».proof.Proof.Gen.KernelIdeal.Launch
import proofs.«142354_g77575699301056_cont_9to1_m_582_14_alg».proof.Proof.Gen.KernelIdeal.Skeleton
import proofs.«142354_g77575699301056_cont_9to1_m_582_14_alg».proof.Proof.Gen.KernelIdeal.Points
import Idealize.ShloMosaic.Lib.Pipeline.FrameBody
import Idealize.ShloMosaic.Lib.Pipeline.FrameSuffix
import Idealize.ShloMosaic.Lib.Pipeline.Launch
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The distinct buffers behind the six windows' arrays: the queries, the keys, the values, the result. -/
theorem arrRef_image : Finset.univ.image (Pipeline.arrRef spec0) = {main_arg0, main_arg1, main_arg2, main_v0} := by decide

/-- The buffers behind the arrays, each whole at the full share, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_v0) ↦{fullShare} Vc main_v0)) := by
  unfold Pipeline.arrBufs
  rw [arrRef_image, bigSep_insert (by decide), bigSep_insert (by decide), bigSep_insert (by decide), bigSep_singleton]
  rfl

/-- The six windows' arrays as the proof data holds them, one by one: the queries and the result whole, the keys and
    the values each as a left and a right half of the full share. -/
theorem arrays_eq_shared {c : Dev nD} (dat : Dat τ (Elt F) Unit ℕ (UR sig nD τ) ℕ cfg0 c)
    (hq0 : dat.q 0 = fullShare) (hq1 : dat.q 1 = fullShare.left) (hq2 : dat.q 2 = fullShare.right)
    (hq3 : dat.q 3 = fullShare.left) (hq4 : dat.q 4 = fullShare.right)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat.arrays Fw : sProp 𝕄)
      = iprop((((c : Thread nD τ).loc main_arg0) ↦{fullShare} Vc main_arg0)
          ∗ (((c : Thread nD τ).loc main_arg1) ↦{fullShare.left} Vc main_arg1) ∗ (((c : Thread nD τ).loc main_arg1) ↦{fullShare.right} Vc main_arg1)
          ∗ (((c : Thread nD τ).loc main_arg2) ↦{fullShare.left} Vc main_arg2) ∗ (((c : Thread nD τ).loc main_arg2) ↦{fullShare.right} Vc main_arg2)
          ∗ (((c : Thread nD τ).loc main_v0) ↦{fullShare} Vc main_v0)) := by
  unfold Dat.arrays
  rw [bigSep_W0]

  have e0 : ((cfg0.win 0).arr.view.loc (c : Thread nD τ) ↦[(cfg0.win 0).arr.view.set]{dat.share 0} Fw 0 : sProp 𝕄)
      = (((c : Thread nD τ).loc main_arg0) ↦{fullShare} Vc main_arg0) := by
    rw [show (cfg0.win 0).arr.view.set = Finset.univ from (arr_whole0 0).set_eq_univ, hF 0,
      show dat.share 0 = fullShare from by unfold Dat.share; rw [hq0]; rfl]

  have e1 : ((cfg0.win 1).arr.view.loc (c : Thread nD τ) ↦[(cfg0.win 1).arr.view.set]{dat.share 1} Fw 1 : sProp 𝕄)
      = (((c : Thread nD τ).loc main_arg1) ↦{fullShare.left} Vc main_arg1) := by
    rw [show (cfg0.win 1).arr.view.set = Finset.univ from (arr_whole0 1).set_eq_univ, hF 1,
      show dat.share 1 = fullShare.left from by unfold Dat.share; rw [hq1]; rfl]

  have e2 : ((cfg0.win 2).arr.view.loc (c : Thread nD τ) ↦[(cfg0.win 2).arr.view.set]{dat.share 2} Fw 2 : sProp 𝕄)
      = (((c : Thread nD τ).loc main_arg1) ↦{fullShare.right} Vc main_arg1) := by
    rw [show (cfg0.win 2).arr.view.set = Finset.univ from (arr_whole0 2).set_eq_univ, hF 2,
      show dat.share 2 = fullShare.right from by unfold Dat.share; rw [hq2]; rfl]

  have e3 : ((cfg0.win 3).arr.view.loc (c : Thread nD τ) ↦[(cfg0.win 3).arr.view.set]{dat.share 3} Fw 3 : sProp 𝕄)
      = (((c : Thread nD τ).loc main_arg2) ↦{fullShare.left} Vc main_arg2) := by
    rw [show (cfg0.win 3).arr.view.set = Finset.univ from (arr_whole0 3).set_eq_univ, hF 3,
      show dat.share 3 = fullShare.left from by unfold Dat.share; rw [hq3]; rfl]

  have e4 : ((cfg0.win 4).arr.view.loc (c : Thread nD τ) ↦[(cfg0.win 4).arr.view.set]{dat.share 4} Fw 4 : sProp 𝕄)
      = (((c : Thread nD τ).loc main_arg2) ↦{fullShare.right} Vc main_arg2) := by
    rw [show (cfg0.win 4).arr.view.set = Finset.univ from (arr_whole0 4).set_eq_univ, hF 4,
      show dat.share 4 = fullShare.right from by unfold Dat.share; rw [hq4]; rfl]

  have e5 : ((cfg0.win 5).arr.view.loc (c : Thread nD τ) ↦[(cfg0.win 5).arr.view.set]{dat.share 5} Fw 5 : sProp 𝕄)
      = (((c : Thread nD τ).loc main_v0) ↦{fullShare} Vc main_v0) := by
    rw [show (cfg0.win 5).arr.view.set = Finset.univ from (arr_whole0 5).set_eq_univ, hF 5,
      show dat.share 5 = fullShare from rfl]
  rw [e0, e1, e2, e3, e4, e5]

/-- The launch's split when windows share an array: the four distinct buffers, each whole at the full share, make the
    six windows' arrays, the keys' and the values' points-tos each cut into a left and a right half. -/
theorem arrays_split_shared {c : Dev nD} (dat : Dat τ (Elt F) Unit ℕ (UR sig nD τ) ℕ cfg0 c)
    (hq0 : dat.q 0 = fullShare) (hq1 : dat.q 1 = fullShare.left) (hq2 : dat.q 2 = fullShare.right)
    (hq3 : dat.q 3 = fullShare.left) (hq4 : dat.q 4 = fullShare.right)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs (Ix := Unit) (Name := ℕ) (U := UR sig nD τ) (Lvl := ℕ) spec0 c Vc : sProp 𝕄) ⊢ dat.arrays Fw := by
  rw [arrBufs_eq, arrays_eq_shared dat hq0 hq1 hq2 hq3 hq4 Vc Fw hF]
  iintro ⟨H0, H1, H2, H5⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  isplitl [H0]; · iexact H0
  isplitl [H1a]; · iexact H1a
  isplitl [H1b]; · iexact H1b
  isplitl [H2a]; · iexact H2a
  isplitl [H2b]; · iexact H2b
  iexact H5

end Cert.KernelIdeal.Hand

end
-- ==== Proof.KILaunch.lean ====
/-
  The attention kernel's launch, part 3: the run.

  The pipeline is launched with its six windows on four arrays: the query array and the result array have one
  window each; the keys and the values have two each, which read them through half shares. With the body's
  obligation at every point and the two scratch buffers as the region's invariant, every weakly fair execution of
  @main terminates, the three argument arrays end as they began (no window writes them), and the result array ends
  holding the one block written back, at the last point: the quotient of the two running totals.
-/
import proofs.«142354_g77575699301056_cont_9to1_m_582_14_alg».proof.Proof.KIFrame
import proofs.«142354_g77575699301056_cont_9to1_m_582_14_alg».proof.Proof.KISplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At the compiled mesh, from any memory with zero counters, every weakly fair execution of @main terminates and
    ends with every windowed array at what the write-backs made of it — given how the distinct array buffers are
    dealt among the windows at entry (`hsplit`: the keys and the values are each read by two windows). -/
theorem run_main_of
    (hsplit : ∀ c : Dev nD, (Pipeline.arrBufs (Ix := Unit) (Name := ℕ) (U := UR sig nD τ) (Lvl := ℕ) spec0 c (V m c) : sProp 𝕄)
      ⊢ (dats m 0 c).arrays ((dats m 0 c).arrAt · 0)) :
    θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := Rounds.initOf (Pipeline.cells cfgs cellOf_inj) (Pipeline.launchToks cfgs cellOf_inj)) (hu₀ := .rfl)
    (V := V m) (hmain := hmain m Variants.none)
    (hsplit := hsplit)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun _ _ => True)
    (hY := fun c s' => by
      iintro ⟨-, -, HSI⟩
      imodintro
      isplitr; · ipureintro; trivial
      iexact HSI)
    (hQ := fun s h c w => (h c).1 w)

/-- The run: the six windows' arrays dealt at entry as the proof data says — the query and result arrays whole, the
    keys and the values by halves. -/
theorem run_main : θ_run defs (onTc (τ := τ) (main (F := F))) ⟨m, fun _ => 0, ρ⟩
      (fun r => ∀ c : Dev nD, ∀ w, r.2.mem ((cfg0.spec w).arr.view.loc (c.tc : Thread nD τ)) = (dats m 0 c).arrAt w cfg0.N) :=
  run_main_of m ρ (fun c => arrays_split_shared (dats m 0 c) rfl rfl rfl rfl rfl (V m c) _ (fun w => A_eq m c w))

/-- The same run read at the program's own names: the result array is what the write-backs made of it, and the
    three argument arrays, which only input windows touch, end as they began. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c 5,
     (h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

/-- The frame: the program runs to the end and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.AttnSpec.lean ====
/-
  Attention of 32 queries over a memory of 1,000,000 key and value rows of width 128, written twice on the
  extended reals.

  Both programs first divide each query row by `max (‖row‖₂) eps`. The streaming form then scales the unit row by
  the inverse temperature, takes its inner product with every key, subtracts the FIXED shift `invT`, exponentiates,
  and adds up `weight · value` and `weight` block by block: the memory is cut into 200 consecutive blocks of 5,000
  rows, two per step, a step's two partial sums added first and then added to what the earlier steps left; the
  result is the quotient of the two totals. The one-pass form divides the inner product of the unit row and a key by
  the temperature, subtracts a row-wise shift `M` (a row maximum, in practice), exponentiates, divides every weight
  by the row's total and only then sums `weight · value` over the whole memory.

  Over real inputs the two agree: dividing by the temperature is multiplying by its reciprocal, a common factor
  `exp (M − invT)` cancels between numerator and denominator, and a quotient of sums is the sum of quotients.
-/
import Idealize.ShloMosaic.PureOps.Ideal
import Idealize.ShloMosaic.Lib.ValueIdx

noncomputable section

open scoped BigOperators

namespace Cert.Attn

open Idealize.ShloMosaic Idealize.ShloMosaic.ValueIdx

/-- A [32, 128] array of extended reals. -/
abbrev QArr := (⟨2, ![32, 128]⟩ : Shape).Idx → EReal
/-- A [1000000, 128] array of extended reals. -/
abbrev MArr := (⟨2, ![1000000, 128]⟩ : Shape).Idx → EReal

/-- The floor under a row's norm (both programs carry the same word). -/
def eps : EReal := Ideal.ofBits .f32 0x2B8CBCCC#32
/-- The inverse temperature: the reciprocal of `temp`, as a rational. -/
def invT : EReal := ((268435456 / 13421773 : ℝ) : EReal)
/-- The temperature the one-pass form divides by. -/
def temp : EReal := Ideal.ofBits .f32 0x3D4CCCCD#32

variable (q : QArr) (K V : MArr)

/-- The Euclidean norm of query row `b`. -/
def norm (b : Fin 32) : EReal := Ideal.sqrt (∑ e : Fin 128, q (ix2 b e) * q (ix2 b e))
/-- Query row `b` divided by its floored norm, at column `e`. -/
def unit (b : Fin 32) (e : Fin 128) : EReal := Ideal.div (q (ix2 b e)) (max (norm q b) eps)

/-! ## The streaming form -/

/-- The scaled unit row's inner product with key `j`. -/
def logitK (b : Fin 32) (j : Fin 1000000) : EReal := ∑ e : Fin 128, (unit q b e * invT) * K (ix2 j e)
/-- The weight of key `j` for query `b` under the fixed shift. -/
def wK (b : Fin 32) (j : Fin 1000000) : EReal := Ideal.exp (logitK q K b j - invT)
/-- Row `r` of half `i` of step `n`: block `2 n + i` of 5,000 rows (total in `n`; the steps are `n < 100`). -/
def row (n : ℕ) (i : Fin 2) (r : Fin 5000) : Fin 1000000 :=
  ⟨((2 * n + i.val) * 5000 + r.val) % 1000000, Nat.mod_lt _ (by norm_num)⟩
/-- One block's sum of `weight · value`. -/
def blockNum (n : ℕ) (i : Fin 2) (b : Fin 32) (d : Fin 128) : EReal :=
  ∑ r : Fin 5000, wK q K b (row n i r) * V (ix2 (row n i r) d)
/-- One block's sum of weights. -/
def blockDen (n : ℕ) (i : Fin 2) (b : Fin 32) : EReal := ∑ r : Fin 5000, wK q K b (row n i r)
/-- One step's two blocks. -/
def pointNum (n : ℕ) (b : Fin 32) (d : Fin 128) : EReal := blockNum q K V n 0 b d + blockNum q K V n 1 b d
def pointDen (n : ℕ) (b : Fin 32) : EReal := blockDen q K n 0 b + blockDen q K n 1 b
/-- The running total after step `n`: step 0 starts it, every later step adds to it. -/
def accum (P : ℕ → EReal) : ℕ → EReal
  | 0 => P 0
  | n + 1 => accum P n + P (n + 1)
/-- The streaming form's result: the two totals after the last of the 100 steps, divided. -/
def kerOut (b : Fin 32) (d : Fin 128) : EReal :=
  Ideal.div (accum (fun n => pointNum q K V n b d) 99) (accum (fun n => pointDen q K n b) 99)

/-! ## The one-pass form -/

/-- The unit row's inner product with key `j`, divided by the temperature. -/
def logitR (b : Fin 32) (j : Fin 1000000) : EReal := Ideal.div (∑ e : Fin 128, unit q b e * K (ix2 j e)) temp
/-- The one-pass form's result under the row-wise shift `M`. -/
def refOut (M : Fin 32 → EReal) (b : Fin 32) (d : Fin 128) : EReal :=
  ∑ j : Fin 1000000, Ideal.div (Ideal.exp (logitR q K b j - M b)) (∑ l : Fin 1000000, Ideal.exp (logitR q K b l - M b))
    * V (ix2 j d)

end Cert.Attn

end
-- ==== Proof.KIBlocks.lean ====
/-
  The attention kernel's launch, part 2: the input blocks read off the arrays.

  A block's coordinate on an axis is always (block index) × (block extent) + (coordinate inside the block). The query
  window's block index is (0, 0) at every point, so it shows the whole [32, 128] array. At point `t` the two key
  windows have block indices (2 t, 0) and (2 t + 1, 0) of blocks of 5,000 rows, and the two value windows the same:
  row `r` of half `i` is memory row (2 t + i) · 5000 + r, which for t < 100 is below 1,000,000, so reducing it
  modulo 1,000,000 changes nothing.
-/
import proofs.«142354_g77575699301056_cont_9to1_m_582_14_alg».proof.Proof.KIKit
import proofs.«142354_g77575699301056_cont_9to1_m_582_14_alg».proof.Proof.AttnSpec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-! ## The index maps, point by point -/

/-- The query window never moves. -/
theorem idx0 : ∀ t : Fin cfg0.N, win0_0.index t (0 : Fin 2) = 0 ∧ win0_0.index t (1 : Fin 2) = 0 :=
  (by decide +kernel : ∀ t : Fin grid0.N, _)
/-- The first key window shows block `2 t`. -/
theorem idx1 : ∀ t : Fin cfg0.N, win0_1.index t (0 : Fin 2) = 2 * t.val ∧ win0_1.index t (1 : Fin 2) = 0 :=
  (by decide +kernel : ∀ t : Fin grid0.N, _)
/-- The second key window shows block `2 t + 1`. -/
theorem idx2 : ∀ t : Fin cfg0.N, win0_2.index t (0 : Fin 2) = 2 * t.val + 1 ∧ win0_2.index t (1 : Fin 2) = 0 :=
  (by decide +kernel : ∀ t : Fin grid0.N, _)
/-- The first value window shows block `2 t`. -/
theorem idx3 : ∀ t : Fin cfg0.N, win0_3.index t (0 : Fin 2) = 2 * t.val ∧ win0_3.index t (1 : Fin 2) = 0 :=
  (by decide +kernel : ∀ t : Fin grid0.N, _)
/-- The second value window shows block `2 t + 1`. -/
theorem idx4 : ∀ t : Fin cfg0.N, win0_4.index t (0 : Fin 2) = 2 * t.val + 1 ∧ win0_4.index t (1 : Fin 2) = 0 :=
  (by decide +kernel : ∀ t : Fin grid0.N, _)

/-! ## The blocks, read off the arrays -/

/-- The query window shows the whole array at every point. -/
theorem blk0 (c : Dev nD) (t : Fin cfg0.N) (b : Fin 32) (e : Fin 128) :
    iblk m c 0 t (ix2 b e) = m ((c : Thread nD τ).loc main_arg0) (ix2 b e) := by
  unfold iblk
  show V m c main_arg0 (((cfg0.win 0).blk t).view.emb (ix2 b e)) = V m c main_arg0 (ix2 b e)
  obtain ⟨e0, e1⟩ := idx0 t
  refine congrArg (V m c main_arg0) (funext fun a => Fin.ext ?_)
  match a with
  | ⟨0, _⟩ => show win0_0.index t (0 : Fin 2) * 32 + 1 * b.val = b.val; omega
  | ⟨1, _⟩ => show win0_0.index t (1 : Fin 2) * 128 + 1 * e.val = e.val; omega

/-- Row `r` of block `2 t + i` is row `(2 t + i) · 5000 + r` of the memory. -/
theorem row_val (t : Fin cfg0.N) (i : Fin 2) (r : Fin 5000) :
    (Cert.Attn.row t.val i r).val = (2 * t.val + i.val) * 5000 + r.val := by
  have ht : t.val < 100 := lt_of_lt_of_eq t.isLt N_0
  have hi : i.val < 2 := i.isLt
  have hr : r.val < 5000 := r.isLt
  show ((2 * t.val + i.val) * 5000 + r.val) % 1000000 = _
  exact Nat.mod_eq_of_lt (by omega)

/-- The first key window at point `t` is block `2 t` of the keys. -/
theorem blk1 (c : Dev nD) (t : Fin cfg0.N) (r : Fin 5000) (e : Fin 128) :
    iblk m c 1 t (ix2 r e) = m ((c : Thread nD τ).loc main_arg1) (ix2 (Cert.Attn.row t.val 0 r) e) := by
  unfold iblk
  show V m c main_arg1 (((cfg0.win 1).blk t).view.emb (ix2 r e)) = V m c main_arg1 (ix2 (Cert.Attn.row t.val 0 r) e)
  obtain ⟨e0, e1⟩ := idx1 t
  have hr := row_val t 0 r
  have hh : ((0 : Fin 2)).val = 0 := rfl
  refine congrArg (V m c main_arg1) (funext fun a => Fin.ext ?_)
  match a with
  | ⟨0, _⟩ => show win0_1.index t (0 : Fin 2) * 5000 + 1 * r.val = (Cert.Attn.row t.val 0 r).val; rw [hr, e0, hh]; omega
  | ⟨1, _⟩ => show win0_1.index t (1 : Fin 2) * 128 + 1 * e.val = e.val; omega

/-- The second key window at point `t` is block `2 t + 1` of the keys. -/
theorem blk2 (c : Dev nD) (t : Fin cfg0.N) (r : Fin 5000) (e : Fin 128) :
    iblk m c 2 t (ix2 r e) = m ((c : Thread nD τ).loc main_arg1) (ix2 (Cert.Attn.row t.val 1 r) e) := by
  unfold iblk
  show V m c main_arg1 (((cfg0.win 2).blk t).view.emb (ix2 r e)) = V m c main_arg1 (ix2 (Cert.Attn.row t.val 1 r) e)
  obtain ⟨e0, e1⟩ := idx2 t
  have hr := row_val t 1 r
  have hh : ((1 : Fin 2)).val = 1 := rfl
  refine congrArg (V m c main_arg1) (funext fun a => Fin.ext ?_)
  match a with
  | ⟨0, _⟩ => show win0_2.index t (0 : Fin 2) * 5000 + 1 * r.val = (Cert.Attn.row t.val 1 r).val; rw [hr, e0, hh]; omega
  | ⟨1, _⟩ => show win0_2.index t (1 : Fin 2) * 128 + 1 * e.val = e.val; omega

/-- The first value window at point `t` is block `2 t` of the values. -/
theorem blk3 (c : Dev nD) (t : Fin cfg0.N) (r : Fin 5000) (e : Fin 128) :
    iblk m c 3 t (ix2 r e) = m ((c : Thread nD τ).loc main_arg2) (ix2 (Cert.Attn.row t.val 0 r) e) := by
  unfold iblk
  show V m c main_arg2 (((cfg0.win 3).blk t).view.emb (ix2 r e)) = V m c main_arg2 (ix2 (Cert.Attn.row t.val 0 r) e)
  obtain ⟨e0, e1⟩ := idx3 t
  have hr := row_val t 0 r
  have hh : ((0 : Fin 2)).val = 0 := rfl
  refine congrArg (V m c main_arg2) (funext fun a => Fin.ext ?_)
  match a with
  | ⟨0, _⟩ => show win0_3.index t (0 : Fin 2) * 5000 + 1 * r.val = (Cert.Attn.row t.val 0 r).val; rw [hr, e0, hh]; omega
  | ⟨1, _⟩ => show win0_3.index t (1 : Fin 2) * 128 + 1 * e.val = e.val; omega

/-- The second value window at point `t` is block `2 t + 1` of the values. -/
theorem blk4 (c : Dev nD) (t : Fin cfg0.N) (r : Fin 5000) (e : Fin 128) :
    iblk m c 4 t (ix2 r e) = m ((c : Thread nD τ).loc main_arg2) (ix2 (Cert.Attn.row t.val 1 r) e) := by
  unfold iblk
  show V m c main_arg2 (((cfg0.win 4).blk t).view.emb (ix2 r e)) = V m c main_arg2 (ix2 (Cert.Attn.row t.val 1 r) e)
  obtain ⟨e0, e1⟩ := idx4 t
  have hr := row_val t 1 r
  have hh : ((1 : Fin 2)).val = 1 := rfl
  refine congrArg (V m c main_arg2) (funext fun a => Fin.ext ?_)
  match a with
  | ⟨0, _⟩ => show win0_4.index t (0 : Fin 2) * 5000 + 1 * r.val = (Cert.Attn.row t.val 1 r).val; rw [hr, e0, hh]; omega
  | ⟨1, _⟩ => show win0_4.index t (1 : Fin 2) * 128 + 1 * e.val = e.val; omega

end Cert.KernelIdeal.Hand

end
-- ==== Proof.AttnConsts.lean ====
/-
  The two float constants of the attention programs as real numbers.

  The temperature word denotes the rational 13421773 / 268435456 (that is 13421773 · 2⁻²⁸), whose reciprocal is the
  inverse temperature; the norm floor denotes the positive real 9223372 · 2⁻⁶³.
-/
import proofs.«142354_g77575699301056_cont_9to1_m_582_14_alg».proof.Proof.AttnSpec

noncomputable section

namespace Cert.Attn

open Idealize.ShloMosaic

/-- The temperature is the rational 13421773 / 268435456. -/
theorem temp_eq : temp = ((13421773 / 268435456 : ℝ) : EReal) := by
  unfold temp
  simp [Ideal.ofBits, Ideal.ieee, -EReal.coe_mul]
  norm_num

/-- The norm floor is the real 9223372 / 2 ^ 63. -/
theorem eps_eq : eps = ((9223372 / 2 ^ 63 : ℝ) : EReal) := by
  unfold eps
  simp [Ideal.ofBits, Ideal.ieee, -EReal.coe_mul]
  norm_num

/-- The norm floor is a positive real. -/
theorem eps_pos : ∃ ε : ℝ, 0 < ε ∧ eps = (ε : EReal) :=
  ⟨9223372 / 2 ^ 63, by positivity, eps_eq⟩

/-- The word with sign bit set, all-ones exponent and zero fraction is −∞. -/
theorem neg_inf_word : Ideal.ofBits .f32 0xFF800000#32 = (⊥ : EReal) := by
  simp [Ideal.ofBits, Ideal.ieee]

/-- The word with sign bit clear, all-ones exponent and zero fraction is +∞. -/
theorem pos_inf_word : Ideal.ofBits .f32 0x7F800000#32 = (⊤ : EReal) := by
  simp [Ideal.ofBits, Ideal.ieee]

/-- Dividing by the temperature is multiplying by the inverse temperature. -/
theorem div_temp (x : EReal) : Ideal.div x temp = x * invT := by
  rw [temp_eq, Ideal.div_coe (by norm_num), invT]
  congr 2
  norm_num

end Cert.Attn

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibTransposedDot.lean ====
/-
  A matrix product whose right operand is contracted on its LAST axis: `x · Wᵀ`.

  For a left operand `[M, K]` and a right operand `[N, K]`, both contracted on their second axis and with no
  batch axis, the entry `(p, q)` of the product is the inner product of row `p` of the left operand with
  row `q` of the right one: `∑ i : Fin K, l (p, i) · r (q, i)`.  Stated for every extent, over the
  dimension record `DotDims.transposedRhs M K N`, for the contraction's sum itself, for a matrix unit's product
  into a zero accumulator and for a host `dot_general`; a record given by name is brought in by an equation
  `D = DotDims.transposedRhs M K N` (true by `rfl` for a record with these axis lists).
-/
import Idealize.ShloMosaic.PureOps.Ideal
import Idealize.ShloMosaic.PureOps.Ideal.Laws
import Idealize.ShloMosaic.Lib.ValueIdx
import proofs.«142354_g77575699301056_cont_9to1_m_582_14_alg».proof.Proof.LibDotSum

noncomputable section

namespace Cert.LibTransposedDot

open Idealize.ShloMosaic Idealize.ShloMosaic.ValueIdx
open scoped BigOperators

variable {M K N : Nat}

/-- The left operand is read in the output's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … at the contraction's coordinate; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand in the row the output's COLUMN names … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … at the contraction's coordinate. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction's sum at output entry `(p, q)`: row `p` of the left operand against row `q` of the right. -/
theorem sum_contr (l : (⟨2, ![M, K]⟩ : Shape).Idx → EReal) (r : (⟨2, ![N, K]⟩ : Shape).Idx → EReal) (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ i : Fin K, l (ix2 p i) * r (ix2 q i) := by
  refine Cert.LibDotSum.sum_contr_eq (DotDims.transposedRhs M K N) K rfl rfl l r (ix2 p q) _ _ (fun i => ?_) (fun i => ?_)
  · have hk := contrEquiv1_symm_val (DotDims.transposedRhs M K N) K rfl rfl i
    refine congrArg l (funext fun a => Fin.ext ?_)
    match a with
    | ⟨0, _⟩ => exact lhs_row _ _
    | ⟨1, _⟩ => exact (lhs_col _ _).trans hk
  · have hk := contrEquiv1_symm_val (DotDims.transposedRhs M K N) K rfl rfl i
    refine congrArg r (funext fun a => Fin.ext ?_)
    match a with
    | ⟨0, _⟩ => exact rhs_row _ _
    | ⟨1, _⟩ => exact (rhs_col _ _).trans hk

/-- A matrix unit's product into the zero accumulator, read at `(p, q)`. -/
theorem matmul_zero_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    matmul D prec l r (constant (F := Ideal) ⟨2, ![M, N]⟩ .f32 0x00000000#32) (ix2 p q)
      = ∑ i : Fin K, l (ix2 p i) * r (ix2 q i) := by
  subst hD
  exact (Ideal.matmul_constant_zero_apply _ prec l r (ix2 p q)).trans (sum_contr l r p q)

/-- A host `dot_general` with these dimension numbers, read at `(p, q)`. -/
theorem dotGeneral_apply {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (q : Fin N) :
    Host.dotGeneral D prec l r (ix2 p q) = ∑ i : Fin K, l (ix2 p i) * r (ix2 q i) := by
  subst hD
  exact (Ideal.dotGeneral_apply _ prec .single l r (ix2 p q)).trans (sum_contr l r p q)

end Cert.LibTransposedDot

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«142354_g77575699301056_cont_9to1_m_582_14_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.AttnPayload.lean ====
/-
  The kernel body's values, read entry by entry on the extended reals.

  One step of the streaming form takes the query array and two blocks of 5,000 keys and 5,000 values. Each query row
  is divided by its floored Euclidean norm and multiplied by the inverse temperature; its inner products with a
  block's keys, less the fixed shift, are exponentiated to weights; the step's numerator is the two blocks' sums of
  weight times value and its denominator the two blocks' sums of weights, each added to zero. The first step stores
  these, a later step adds them to what is stored (the denominator along every column), and the last step divides
  the stored numerator by the stored denominator entry by entry.

  Every statement is at literal coordinates: a row sum read at a row is the sum over the row's entries, a column
  read through a reshape or a broadcast is the entry of its row, a product contracting both second axes is the sum
  of products of two rows, and a plain product the sum of a row's entries times a column's.
-/
import proofs.«142354_g77575699301056_cont_9to1_m_582_14_alg».proof.Proof.Gen.KernelIdeal.Skeleton
import proofs.«142354_g77575699301056_cont_9to1_m_582_14_alg».proof.Proof.AttnSpec
import proofs.«142354_g77575699301056_cont_9to1_m_582_14_alg».proof.Proof.AttnConsts
import proofs.«142354_g77575699301056_cont_9to1_m_582_14_alg».proof.Proof.LibColumnCast
import proofs.«142354_g77575699301056_cont_9to1_m_582_14_alg».proof.Proof.LibColumnBroadcast
import proofs.«142354_g77575699301056_cont_9to1_m_582_14_alg».proof.Proof.LibTransposedDot
import proofs.«142354_g77575699301056_cont_9to1_m_582_14_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.Payload

open Cert.KernelIdeal Cert.KernelIdeal.Gen Idealize.ShloMosaic Idealize.ShloMosaic.ValueIdx

/-- The weight of row r of a block of 5,000 keys for query b: the exponential of the scaled unit row's inner product
    with the key, less the fixed shift. -/
def wOf (x0 : QArr) (kb : (⟨2, ![5000, 128]⟩ : Shape).Idx → EReal) (b : Fin 32) (r : Fin 5000) : EReal :=
  Ideal.exp ((∑ e : Fin 128, (unit x0 b e * invT) * kb (ix2 r e)) - invT)
/-- A block's sum of weight times value. -/
def numOf (x0 : QArr) (kb vb : (⟨2, ![5000, 128]⟩ : Shape).Idx → EReal) (b : Fin 32) (d : Fin 128) : EReal :=
  ∑ r : Fin 5000, wOf x0 kb b r * vb (ix2 r d)
/-- A block's sum of weights. -/
def denOf (x0 : QArr) (kb : (⟨2, ![5000, 128]⟩ : Shape).Idx → EReal) (b : Fin 32) : EReal :=
  ∑ r : Fin 5000, wOf x0 kb b r

/-- The table gives the named constant the inverse temperature. -/
theorem named_invT :
    Named.named (F := Ideal) Cert.KernelIdeal.κ "inv_temperature" (φ := .f32) 0x41A00000#32 = invT :=
  IdealRules.named_const.ideal_named_scalar _ _ _ _ rfl

/-- A sum along the rows of a two-axis array, read at row p, is the sum over the row's entries. -/
theorem rowSum_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin c, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The scaled unit query row: the kernel divides the row by its floored norm and multiplies by the inverse temperature. -/
theorem pay7_apply (x0 : Vec Ideal S32x128 .f32) (b : Fin 32) (e : Fin 128) :
    k0_pay7 (F := Ideal) x0 (ix2 b e) = unit x0 b e * invT := by
  have h7 : ∀ v6 : FVec Ideal S32x1 .f32,
      broadcastTo S32x128 v6 broadcasts_S32x1_S32x128 (ix2 b e) = v6 (ix2 b (0 : Fin 1)) :=
    fun v6 => Cert.Lib.broadcastTo_a1_ab_apply v6 _ b e
  have h3 : (shapeCast S32x1 (multiReduction .add [1] S32 (mulf x0 x0) 0x00000000#32 reduces_S32x128_S32 (.inl rfl) rfl)
        shapeCasts_S32_S32x1 : FVec Ideal S32x1 .f32) (ix2 b (0 : Fin 1))
      = ∑ e : Fin 128, x0 (ix2 b e) * x0 (ix2 b e) :=
    (Cert.Lib.shapeCast_a_a1_apply _ _ b 0).trans (rowSum_apply (mulf x0 x0) _ _ _ b)
  unfold k0_pay7
  exact (congrArg₂ (fun d t => Ideal.div (x0 (ix2 b e)) d * t) (h7 _) named_invT).trans
    (congrArg (fun s => Ideal.div (x0 (ix2 b e)) (max (Ideal.sqrt s) eps) * invT) h3)

/-- The scaled unit row against the rows of a key block, into a zero accumulator: the inner products. -/
theorem logits_apply (x0 : Vec Ideal S32x128 .f32) (kb : FVec Ideal S5000x128 .f32) (b : Fin 32) (r : Fin 5000) :
    matmul dot_S32x128_S5000x128_S32x5000_1_1_0_0_n_n none (k0_pay7 (F := Ideal) x0) kb
        (constant (F := Ideal) S32x5000 .f32 0x00000000#32) (ix2 b r)
      = ∑ e : Fin 128, (unit x0 b e * invT) * kb (ix2 r e) :=
  (Cert.LibTransposedDot.matmul_zero_apply _ rfl none _ _ b r).trans
    (Finset.sum_congr rfl fun e _ => congrArg (· * kb (ix2 r e)) (pay7_apply x0 b e))

/-- The first half's weights. -/
theorem pay8_apply (x0 : Vec Ideal S32x128 .f32) (kb : Vec Ideal S5000x128 .f32) (b : Fin 32) (r : Fin 5000) :
    k0_pay8 (F := Ideal) x0 kb (ix2 b r) = wOf x0 kb b r := by
  unfold k0_pay8
  exact congrArg₂ (fun s t => Ideal.exp (s - t)) (logits_apply x0 kb b r) named_invT

/-- The second half's weights: the same function of its key block. -/
theorem pay9_apply (x0 : Vec Ideal S32x128 .f32) (kb : Vec Ideal S5000x128 .f32) (b : Fin 32) (r : Fin 5000) :
    k0_pay9 (F := Ideal) x0 kb (ix2 b r) = wOf x0 kb b r := by
  unfold k0_pay9
  exact congrArg₂ (fun s t => Ideal.exp (s - t)) (logits_apply x0 kb b r) named_invT

/-- Weights times a value block, into a zero accumulator: the sum over the block's rows. -/
theorem weighted_apply (l : FVec Ideal S32x5000 .f32) (vb : FVec Ideal S5000x128 .f32) (b : Fin 32) (d : Fin 128) :
    matmul dot_S32x5000_S5000x128_S32x128_1_0_0_1_n_n none l vb (constant (F := Ideal) S32x128 .f32 0x00000000#32)
        (ix2 b d)
      = ∑ r : Fin 5000, l (ix2 b r) * vb (ix2 r d) :=
  (Ideal.matmul_constant_zero_apply _ none l vb (ix2 b d)).trans
    (Cert.LibPlainDot.sum_plain _ rfl rfl rfl rfl rfl rfl l vb b d)

/-- A step's numerator: the two blocks' sums of weight times value, added to zero. -/
theorem pay10_apply (x0 : Vec Ideal S32x128 .f32) (k0 v0 k1 v1 : Vec Ideal S5000x128 .f32) (b : Fin 32) (d : Fin 128) :
    k0_pay10 (F := Ideal) x0 k0 v0 k1 v1 (ix2 b d) = numOf x0 k0 v0 b d + numOf x0 k1 v1 b d := by
  have h1 : matmul dot_S32x5000_S5000x128_S32x128_1_0_0_1_n_n none (k0_pay8 (F := Ideal) x0 k0) v0
      (constant (F := Ideal) S32x128 .f32 0x00000000#32) (ix2 b d) = numOf x0 k0 v0 b d :=
    (weighted_apply _ v0 b d).trans
      (Finset.sum_congr rfl fun r _ => congrArg (· * v0 (ix2 r d)) (pay8_apply x0 k0 b r))
  have h2 : matmul dot_S32x5000_S5000x128_S32x128_1_0_0_1_n_n none (k0_pay9 (F := Ideal) x0 k1) v1
      (constant (F := Ideal) S32x128 .f32 0x00000000#32) (ix2 b d) = numOf x0 k1 v1 b d :=
    (weighted_apply _ v1 b d).trans
      (Finset.sum_congr rfl fun r _ => congrArg (· * v1 (ix2 r d)) (pay9_apply x0 k1 b r))
  unfold k0_pay10
  refine (congrArg₂ (fun s t => (Ideal.ofBits .f32 0x00000000#32 + s) + t) h1 h2).trans ?_
  rw [Ideal.ofBits_zero_f32, zero_add]

/-- A step's denominator: the two blocks' sums of weights, added to zero. -/
theorem pay11_apply (x0 : Vec Ideal S32x128 .f32) (k0 k1 : Vec Ideal S5000x128 .f32) (b : Fin 32) :
    k0_pay11 (F := Ideal) x0 k0 k1 (ix2 b (0 : Fin 1)) = denOf x0 k0 b + denOf x0 k1 b := by
  have h1 : (shapeCast S32x1 (multiReduction .add [1] S32 (k0_pay8 (F := Ideal) x0 k0) 0x00000000#32
        reduces_S32x5000_S32 (.inl rfl) rfl) shapeCasts_S32_S32x1 : FVec Ideal S32x1 .f32) (ix2 b (0 : Fin 1))
      = denOf x0 k0 b :=
    ((Cert.Lib.shapeCast_a_a1_apply _ _ b 0).trans (rowSum_apply _ _ _ _ b)).trans
      (Finset.sum_congr rfl fun r _ => pay8_apply x0 k0 b r)
  have h2 : (shapeCast S32x1 (multiReduction .add [1] S32 (k0_pay9 (F := Ideal) x0 k1) 0x00000000#32
        reduces_S32x5000_S32 (.inl rfl) rfl) shapeCasts_S32_S32x1 : FVec Ideal S32x1 .f32) (ix2 b (0 : Fin 1))
      = denOf x0 k1 b :=
    ((Cert.Lib.shapeCast_a_a1_apply _ _ b 0).trans (rowSum_apply _ _ _ _ b)).trans
      (Finset.sum_congr rfl fun r _ => pay9_apply x0 k1 b r)
  unfold k0_pay11
  refine (congrFun (shapeCast_self _ _) (ix2 b (0 : Fin 1))).trans ?_
  refine (congrArg₂ (fun s t => (Ideal.ofBits .f32 0x00000000#32 + s) + t) h1 h2).trans ?_
  rw [Ideal.ofBits_zero_f32, zero_add]

/-! ## The stores after the step -/

/-- The first step stores the step's numerator as it is. -/
theorem pay2_eq (v31 : FVec Ideal S32x128 .f32) : k0_pay2 (F := Ideal) v31 = v31 :=
  shapeCast_self v31 _

/-- The first step stores the step's denominator along every column. -/
theorem pay3_apply (v35 : FVec Ideal S32x1 .f32) (b : Fin 32) (d : Fin 128) :
    k0_pay3 (F := Ideal) v35 (ix2 b d) = v35 (ix2 b (0 : Fin 1)) := by
  unfold k0_pay3 k0_pay1
  exact (congrFun (shapeCast_self _ _) (ix2 b d)).trans (Cert.Lib.broadcastTo_a1_ab_apply v35 _ b d)

/-- A later step adds the step's numerator to the stored total. -/
theorem pay4_apply (v31 : FVec Ideal S32x128 .f32) (v46 : Vec Ideal S32x128 .f32) (b : Fin 32) (d : Fin 128) :
    k0_pay4 (F := Ideal) v31 v46 (ix2 b d) = v46 (ix2 b d) + v31 (ix2 b d) := by
  unfold k0_pay4
  exact congrFun (shapeCast_self _ _) (ix2 b d)

/-- A later step adds the step's denominator to the stored total, along every column. -/
theorem pay5_apply (v35 : FVec Ideal S32x1 .f32) (v51 : Vec Ideal S32x128 .f32) (b : Fin 32) (d : Fin 128) :
    k0_pay5 (F := Ideal) v35 v51 (ix2 b d) = v51 (ix2 b d) + v35 (ix2 b (0 : Fin 1)) := by
  unfold k0_pay5 k0_pay1
  exact (congrFun (shapeCast_self _ _) (ix2 b d)).trans
    (congrArg (v51 (ix2 b d) + ·) (Cert.Lib.broadcastTo_a1_ab_apply v35 _ b d))

/-- The last step divides the total numerator by the total denominator. -/
theorem pay6_apply (v46 v47 : Vec Ideal S32x128 .f32) (b : Fin 32) (d : Fin 128) :
    k0_pay6 (F := Ideal) v46 v47 (ix2 b d) = Ideal.div (v46 (ix2 b d)) (v47 (ix2 b d)) := rfl

end Cert.Attn.Payload

end
-- ==== Proof.AttnStep.lean ====
/-
  A step's numerator and denominator are the streaming form's.

  When a step's key and value blocks are the blocks 2 n and 2 n + 1 of the memory (block i of step n holds the rows
  `row n i r`), the weights of a block's rows are the streaming form's weights of those rows, a block's sums are the
  streaming form's block sums, and so the step's numerator and denominator are the form's two step quantities.
-/
import proofs.«142354_g77575699301056_cont_9to1_m_582_14_alg».proof.Proof.AttnPayload

noncomputable section

open scoped BigOperators

namespace Cert.Attn.Payload

open Cert.KernelIdeal Cert.KernelIdeal.Gen Idealize.ShloMosaic Idealize.ShloMosaic.ValueIdx

variable (q : QArr) (K V : MArr) (kb vb : (⟨2, ![5000, 128]⟩ : Shape).Idx → EReal) (n : ℕ) (i : Fin 2)

/-- A block row's weight is the streaming form's weight of the memory row it holds. -/
theorem wOf_eq_wK (hk : ∀ r e, kb (ix2 r e) = K (ix2 (row n i r) e)) (b : Fin 32) (r : Fin 5000) :
    wOf q kb b r = wK q K b (row n i r) :=
  congrArg (fun s => Ideal.exp (s - invT))
    (Finset.sum_congr rfl fun e _ => congrArg (unit q b e * invT * ·) (hk r e))

/-- A block's sum of weight times value is the streaming form's. -/
theorem numOf_eq_blockNum (hk : ∀ r e, kb (ix2 r e) = K (ix2 (row n i r) e))
    (hv : ∀ r e, vb (ix2 r e) = V (ix2 (row n i r) e)) (b : Fin 32) (d : Fin 128) :
    numOf q kb vb b d = blockNum q K V n i b d :=
  Finset.sum_congr rfl fun r _ => congrArg₂ (· * ·) (wOf_eq_wK q K kb n i hk b r) (hv r d)

/-- A block's sum of weights is the streaming form's. -/
theorem denOf_eq_blockDen (hk : ∀ r e, kb (ix2 r e) = K (ix2 (row n i r) e)) (b : Fin 32) :
    denOf q kb b = blockDen q K n i b :=
  Finset.sum_congr rfl fun r _ => wOf_eq_wK q K kb n i hk b r

/-- The step's numerator is the streaming form's, when its blocks are the memory's blocks 2 n and 2 n + 1. -/
theorem pay10_eq_pointNum (x0 : Vec Ideal S32x128 .f32) (k0 v0 k1 v1 : Vec Ideal S5000x128 .f32)
    (hk0 : ∀ r e, k0 (ix2 r e) = K (ix2 (row n 0 r) e)) (hv0 : ∀ r e, v0 (ix2 r e) = V (ix2 (row n 0 r) e))
    (hk1 : ∀ r e, k1 (ix2 r e) = K (ix2 (row n 1 r) e)) (hv1 : ∀ r e, v1 (ix2 r e) = V (ix2 (row n 1 r) e))
    (b : Fin 32) (d : Fin 128) :
    k0_pay10 (F := Ideal) x0 k0 v0 k1 v1 (ix2 b d) = pointNum x0 K V n b d :=
  (pay10_apply x0 k0 v0 k1 v1 b d).trans
    (congrArg₂ (· + ·) (numOf_eq_blockNum x0 K V k0 v0 n 0 hk0 hv0 b d) (numOf_eq_blockNum x0 K V k1 v1 n 1 hk1 hv1 b d))

/-- The step's denominator is the streaming form's. -/
theorem pay11_eq_pointDen (x0 : Vec Ideal S32x128 .f32) (k0 k1 : Vec Ideal S5000x128 .f32)
    (hk0 : ∀ r e, k0 (ix2 r e) = K (ix2 (row n 0 r) e)) (hk1 : ∀ r e, k1 (ix2 r e) = K (ix2 (row n 1 r) e))
    (b : Fin 32) :
    k0_pay11 (F := Ideal) x0 k0 k1 (ix2 b (0 : Fin 1)) = pointDen x0 K n b :=
  (pay11_apply x0 k0 k1 b).trans
    (congrArg₂ (· + ·) (denOf_eq_blockDen x0 K k0 n 0 hk0 b) (denOf_eq_blockDen x0 K k1 n 1 hk1 b))

end Cert.Attn.Payload

end
-- ==== Proof.KIValue.lean ====
/-
  The attention kernel's launch, part 3: what the kernel computes, in the terms of the streaming form.

  The queries, the keys and the values are the three argument arrays as the core finds them. The query window shows
  the whole query array; at point `t` the two key windows and the two value windows show blocks `2 t` and `2 t + 1`
  of 5,000 memory rows. So the point's weighted sum of value rows and its total of weights are the streaming form's
  step numerator and step denominator at step `t`. The scratch buffers add these up step after step: by induction on
  the step they hold the form's running totals (the denominator's spread along each row, the same at every column).
  After the last step the result is the entry-by-entry quotient of the two totals: the streaming form's result.
-/
import proofs.«142354_g77575699301056_cont_9to1_m_582_14_alg».proof.Proof.KIFrame
import proofs.«142354_g77575699301056_cont_9to1_m_582_14_alg».proof.Proof.KIBlocks
import proofs.«142354_g77575699301056_cont_9to1_m_582_14_alg».proof.Proof.AttnSpec
import proofs.«142354_g77575699301056_cont_9to1_m_582_14_alg».proof.Proof.AttnStep
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The queries, the keys and the values as core `c` finds them. -/
abbrev qOf (c : Dev nD) : Cert.Attn.QArr := m ((c : Thread nD τ).loc main_arg0)
abbrev kOf (c : Dev nD) : Cert.Attn.MArr := m ((c : Thread nD τ).loc main_arg1)
abbrev vOf (c : Dev nD) : Cert.Attn.MArr := m ((c : Thread nD τ).loc main_arg2)

/-- The query window's block is the whole query array. -/
theorem iblk0_eq (c : Dev nD) (t : Fin cfg0.N) : iblk m c 0 t = qOf m c :=
  funext fun i => by rw [eq_ix2 i]; exact blk0 m c t _ _

/-- (A) The point's weighted sum is the streaming form's step numerator. -/
theorem ptNum_apply (c : Dev nD) (t : Fin cfg0.N) (b : Fin 32) (d : Fin 128) :
    ptNum m c t (ix2 b d) = Cert.Attn.pointNum (qOf m c) (kOf m c) (vOf m c) t.val b d := by
  show k0_pay10 (F := Ideal) (iblk m c 0 t) (iblk m c 1 t) (iblk m c 3 t) (iblk m c 2 t) (iblk m c 4 t) (ix2 b d) = _
  rw [iblk0_eq m c t]
  exact Cert.Attn.Payload.pay10_eq_pointNum (kOf m c) (vOf m c) t.val (qOf m c) (iblk m c 1 t) (iblk m c 3 t) (iblk m c 2 t) (iblk m c 4 t)
    (blk1 m c t) (blk3 m c t) (blk2 m c t) (blk4 m c t) b d

/-- (A) The point's total of weights is the streaming form's step denominator. -/
theorem ptDen_apply (c : Dev nD) (t : Fin cfg0.N) (b : Fin 32) :
    ptDen m c t (ix2 b (0 : Fin 1)) = Cert.Attn.pointDen (qOf m c) (kOf m c) t.val b := by
  show k0_pay11 (F := Ideal) (iblk m c 0 t) (iblk m c 1 t) (iblk m c 2 t) (ix2 b (0 : Fin 1)) = _
  rw [iblk0_eq m c t]
  exact Cert.Attn.Payload.pay11_eq_pointDen (kOf m c) t.val (qOf m c) (iblk m c 1 t) (iblk m c 2 t) (blk1 m c t) (blk2 m c t) b

/-- (B) The running totals are the streaming form's: after step `n` the first scratch buffer holds the sum of the
    steps' numerators up to `n`, the second the sum of their denominators along every column. -/
theorem scrAt_spec (c : Dev nD) : ∀ (n : ℕ) (h : n < cfg0.N) (b : Fin 32) (d : Fin 128),
    (scrAt m c n h).1 (ix2 b d) = Cert.Attn.accum (fun k => Cert.Attn.pointNum (qOf m c) (kOf m c) (vOf m c) k b d) n
    ∧ (scrAt m c n h).2 (ix2 b d) = Cert.Attn.accum (fun k => Cert.Attn.pointDen (qOf m c) (kOf m c) k b) n
  | 0, h, b, d => by
    constructor
    · show k0_pay2 (F := Ideal) (ptNum m c ⟨0, h⟩) (ix2 b d) = Cert.Attn.pointNum (qOf m c) (kOf m c) (vOf m c) 0 b d
      rw [Cert.Attn.Payload.pay2_eq]
      exact ptNum_apply m c ⟨0, h⟩ b d
    · show k0_pay3 (F := Ideal) (ptDen m c ⟨0, h⟩) (ix2 b d) = Cert.Attn.pointDen (qOf m c) (kOf m c) 0 b
      rw [Cert.Attn.Payload.pay3_apply]
      exact ptDen_apply m c ⟨0, h⟩ b
  | n + 1, h, b, d => by
    obtain ⟨ih1, ih2⟩ := scrAt_spec c n (Nat.lt_of_succ_lt h) b d
    constructor
    · show k0_pay4 (F := Ideal) (ptNum m c ⟨n + 1, h⟩) (scrAt m c n (Nat.lt_of_succ_lt h)).1 (ix2 b d)
        = Cert.Attn.accum (fun k => Cert.Attn.pointNum (qOf m c) (kOf m c) (vOf m c) k b d) n
          + Cert.Attn.pointNum (qOf m c) (kOf m c) (vOf m c) (n + 1) b d
      rw [Cert.Attn.Payload.pay4_apply, ih1]
      exact congrArg (_ + ·) (ptNum_apply m c ⟨n + 1, h⟩ b d)
    · show k0_pay5 (F := Ideal) (ptDen m c ⟨n + 1, h⟩) (scrAt m c n (Nat.lt_of_succ_lt h)).2 (ix2 b d)
        = Cert.Attn.accum (fun k => Cert.Attn.pointDen (qOf m c) (kOf m c) k b) n
          + Cert.Attn.pointDen (qOf m c) (kOf m c) (n + 1) b
      rw [Cert.Attn.Payload.pay5_apply, ih2]
      exact congrArg (_ + ·) (ptDen_apply m c ⟨n + 1, h⟩ b)

/-! ## The result array -/

/-- The last of the 100 points. -/
theorem lastLt : 99 < cfg0.N := by rw [show cfg0.N = 100 from N_0]; norm_num
abbrev tLast : Fin cfg0.N := ⟨99, lastLt⟩

/-- The quotient of the two running totals after the last point, as contents of the result array. -/
abbrev outG (c : Dev nD) : Buf (Elt Ideal) ((c : Thread nD τ).loc main_v0) :=
  k0_pay6 (F := Ideal) (scrAt m c 99 lastLt).1 (scrAt m c 99 lastLt).2

/-- The one write-back, at the last point, writes the quotient: the result window's one block, at block index
    (0, 0), is the whole [32, 128] array, and reading the whole array through zero offsets gives it back. -/
theorem flushed_out (c : Dev nD) (t : Fin cfg0.N) (hf : (cfg0.win 5).flush t = true) :
    (dats (F := Ideal) m 0 c).flushed 5 t = ((cfg0.win 5).blk t).view.read (Elt Ideal) (outG m c) := by
  have hl : t.val = 99 := by
    by_contra hne
    rw [noFlush_out t hne] at hf
    exact Bool.false_ne_true hf
  obtain rfl : t = tLast := Fin.ext hl
  show (cfg0.win 5).cut (grid0.coords tLast) ((dats (F := Ideal) m 0 c).after 5 tLast) = _
  rw [after5]
  have hz' : (fun a => win0_5.index tLast a * main_v0.ty.shape.size a) = fun _ => 0 :=
    funext fun a => by fin_cases a <;> decide +kernel
  exact (Memref.read_access_unit_zero (Elt Ideal) main_v0 hz' (fun a => by rw [congrFun hz' a]; simp) (outG m c)).symm

/-- The result array ends holding the quotient: the last point's block covers it. -/
theorem arrAt_out (c : Dev nD) : (dats (F := Ideal) m 0 c).arrAt 5 cfg0.N = outG m c :=
  (dats (F := Ideal) m 0 c).arrAt_eq_of_cover 5 (outG m c) (flushed_out m c) fun i =>
    ⟨tLast, flush_out tLast rfl, by
      show i ∈ ((View.whole main_v0).slice (win0_5.rect tLast)).set
      rw [View.set_slice_whole, Rect.mem_set_unit]
      intro a
      have h0 : (i 0 : Nat) < 32 := (i 0).isLt
      have h1 : (i 1 : Nat) < 128 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 32 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 128 from by decide +kernel]
        omega⟩

/-- (C) The kernel's result is the streaming form's. -/
theorem result_eq (c : Dev nD) :
    (dats (F := Ideal) m 0 c).arrAt 5 cfg0.N
      = fun i => Cert.Attn.kerOut (m ((c.tc : Thread nD τ).loc main_arg0)) (m ((c.tc : Thread nD τ).loc main_arg1))
          (m ((c.tc : Thread nD τ).loc main_arg2)) (i 0) (i 1) := by
  rw [arrAt_out]
  funext i
  obtain ⟨b, d, rfl⟩ : ∃ (b : Fin 32) (d : Fin 128), i = ix2 b d := ⟨i 0, i 1, eq_ix2 i⟩
  obtain ⟨h1, h2⟩ := scrAt_spec m c 99 lastLt b d
  show k0_pay6 (F := Ideal) (scrAt m c 99 lastLt).1 (scrAt m c 99 lastLt).2 (ix2 b d)
    = Ideal.div (Cert.Attn.accum (fun n => Cert.Attn.pointNum (qOf m c) (kOf m c) (vOf m c) n b d) 99)
        (Cert.Attn.accum (fun n => Cert.Attn.pointDen (qOf m c) (kOf m c) n b) 99)
  rw [Cert.Attn.Payload.pay6_apply, h1, h2]

end Cert.KernelIdeal.Hand

end
-- ==== Proof.AttnReference.lean ====
/-
  The one-pass attention program, read stage by stage.

  Each query row is divided by its floored Euclidean norm; entry (b, j) of the product with the transposed keys is
  the inner product of unit row b with key j (the transposed keys at (e, j) are the keys at (j, e)); every entry is
  divided by the temperature. Row b's shift is the join of −∞ with the running maximum, started from −∞, of the row's
  logits. A weight is the exponential of a logit less its row's shift, a row's total the sum of its weights started
  from zero, and the result at (b, d) the sum over the memory of (weight / total) · value. That is `refOut` under the
  shift `refMax`.

  Over real logits the shift is real: a running maximum from −∞ over a nonempty index set is attained at one of its
  indices.
-/
import proofs.«142354_g77575699301056_cont_9to1_m_582_14_alg».proof.Proof.AttnSpec
import proofs.«142354_g77575699301056_cont_9to1_m_582_14_alg».proof.Proof.AttnConsts
import proofs.«142354_g77575699301056_cont_9to1_m_582_14_alg».proof.Proof.Gen.ReferenceIdeal.Run
import proofs.«142354_g77575699301056_cont_9to1_m_582_14_alg».proof.Proof.Gen.ReferenceIdeal.Read

noncomputable section

open scoped BigOperators

namespace Cert.Attn.Reference

open Idealize.ShloMosaic Idealize.ShloMosaic.ValueIdx Cert.ReferenceIdeal Cert.ReferenceIdeal.Gen Cert.ReferenceIdeal.Read

/-! ## The program's stages, read at explicit coordinates -/

/-- The floored norm of query row `b`: the program joins the floor with the square root of the row's sum of squares. -/
theorem clip_eq (q : QArr) (b : Fin 32) :
    val_main_v1 (F := Ideal) q (ix2 b (0 : Fin 1)) = max (norm q b) eps := by
  have e : ∀ k : Fin 128, idx_main_call0_v1 (idx_main_call0_v2 (ix2 b (0 : Fin 1))) k = ix2 b k := fun k =>
    funext fun a => Fin.ext (by match a with | ⟨0, _⟩ => rfl | ⟨1, _⟩ => rfl)
  rw [val_main_v1_apply, val_main_call1_v1_apply, val_main_call1_v0_apply, val_main_cst_apply, val_main_v0_apply,
    val_main_call0_v2_apply, val_main_call0_v1_apply, val_main_call0_cst_apply]
  simp only [val_main_call0_v0_apply, Ideal.maximumf_def, Ideal.hostUnary_sqrt_def, Ideal.ofBits_def, Ideal.mulf_def,
    Ideal.ofBits_zero_f32, zero_add, e]
  rw [max_comm]
  rfl

/-- The unit query row. -/
theorem unit_eq (q : QArr) (b : Fin 32) (e : Fin 128) :
    val_main_v3 (F := Ideal) q (ix2 b e) = unit q b e := by
  have e2 : idx_main_v2 (ix2 b e) = ix2 b (0 : Fin 1) :=
    funext fun a => Fin.ext (by match a with | ⟨0, _⟩ => rfl | ⟨1, _⟩ => rfl)
  rw [val_main_v3_apply, val_main_v2_apply, e2, clip_eq]
  rfl

/-- A logit: the unit row's inner product with key `j` (the transposed keys read at (e, j) are the keys at (j, e)),
    divided by the temperature. -/
theorem logit_eq (q : QArr) (K : MArr) (b : Fin 32) (j : Fin 1000000) :
    val_main_v7 (F := Ideal) q K (ix2 b j) = logitR q K b j := by
  have el : ∀ k : Fin 128, lidx_main_v5 (ix2 b j) k = ix2 b k := fun k =>
    funext fun a => Fin.ext (by match a with | ⟨0, _⟩ => rfl | ⟨1, _⟩ => rfl)
  have er : ∀ k : Fin 128, idx_main_v4 (ridx_main_v5 (ix2 b j) k) = ix2 j k := fun k =>
    funext fun a => Fin.ext (by match a with | ⟨0, _⟩ => rfl | ⟨1, _⟩ => rfl)
  rw [val_main_v7_apply, val_main_v5_apply, val_main_v6_apply, val_main_cst_0_apply]
  simp only [val_main_v4_apply, el, er, unit_eq, Ideal.hostDivf_def, Ideal.ofBits_def]
  rfl

/-! ## The row maximum -/

/-- The shift the program subtracts in row `b`: the join of −∞ with the running maximum, started from −∞, of the
    row's logits. -/
def refMax (q : QArr) (K : MArr) (b : Fin 32) : EReal :=
  max ⊥ ((Finset.univ : Finset (Fin 1000000)).fold max ⊥ fun j => logitR q K b j)

/-- The reduced index `b` with column `k` put back is (b, k). -/
theorem lift_row (h : S32x1000000.Reduces [1] S32) (b : Fin 32) (k : Fin (S32x1000000.size 1)) :
    h.lift (ix1 b) k = ix2 b (⟨k.val, k.isLt⟩ : Fin 1000000) := by
  funext c; apply Fin.ext
  match c with
  | ⟨0, _⟩ => rfl
  | ⟨1, _⟩ => rfl

/-- The program's row maximum is `refMax`. -/
theorem max_eq (q : QArr) (K : MArr) (b : Fin 32) :
    val_main_v10 (F := Ideal) q K (ix1 b) = refMax q K b := by
  have h : S32x1000000.Reduces [1] S32 := by decide
  have hf : (val_main_v7 (F := Ideal) q K ∘ h.lift (ix1 b)) = fun k : Fin 1000000 => logitR q K b k :=
    funext fun k => by
      show val_main_v7 (F := Ideal) q K (h.lift (ix1 b) k) = _
      rw [lift_row]
      exact logit_eq q K b _
  rw [val_main_v10_apply, val_main_v9_apply, val_main_cst_2_apply]
  unfold val_main_v8
  rw [Host.reduce_eq_fold_single FloatOps.maximumf _ _ reducesTo_S32x1000000_S32_d1 h h_S_, val_main_cst_1_apply]
  simp only [Ideal.ofBits_def, neg_inf_word]
  unfold refMax
  exact congrArg (max ⊥) (congrArg (fun f => Finset.fold max ⊥ f Finset.univ) hf)

/-- Over a row of real logits the shift is real: the running maximum from −∞ over the nonempty index set is
    attained at some column, and joining with −∞ changes nothing. -/
theorem refMax_real (q : QArr) (K : MArr) (h : ∀ b j, ∃ r : ℝ, logitR q K b j = (r : EReal)) (b : Fin 32) :
    ∃ r : ℝ, refMax q K b = (r : EReal) := by
  unfold refMax
  rw [max_eq_right bot_le]
  obtain hb | ⟨x, _, hx⟩ := (Finset.le_fold_max _).mp (le_refl ((Finset.univ : Finset (Fin 1000000)).fold max ⊥ fun j => logitR q K b j))
  · exfalso
    obtain ⟨r, hr⟩ := h b ⟨0, by norm_num⟩
    have h0 : logitR q K b ⟨0, by norm_num⟩ ≤ (Finset.univ : Finset (Fin 1000000)).fold max ⊥ fun j => logitR q K b j :=
      (Finset.le_fold_max _).mpr (Or.inr ⟨_, Finset.mem_univ _, le_rfl⟩)
    have := le_trans h0 hb
    rw [hr, le_bot_iff] at this
    exact EReal.coe_ne_bot r this
  · obtain ⟨r, hr⟩ := h b x
    refine ⟨r, ?_⟩
    rw [← hr]
    exact le_antisymm hx ((Finset.le_fold_max _).mpr (Or.inr ⟨x, Finset.mem_univ _, le_rfl⟩))

/-! ## Weights, their total, and the result -/

/-- A weight: the exponential of the logit less the row's shift. -/
theorem weight_eq (q : QArr) (K : MArr) (b : Fin 32) (j : Fin 1000000) :
    val_main_v14 (F := Ideal) q K (ix2 b j) = Ideal.exp (logitR q K b j - refMax q K b) := by
  have e : idx_main_v11 (idx_main_v12 (ix2 b j)) = ix1 b :=
    funext fun a => Fin.ext (by match a with | ⟨0, _⟩ => rfl)
  rw [val_main_v14_apply, val_main_v13_apply, val_main_v12_apply, val_main_v11_apply, e, logit_eq, max_eq]
  rfl

/-- A row's total weight (the sum starts from the zero word). -/
theorem total_eq (q : QArr) (K : MArr) (b : Fin 32) :
    val_main_v15 (F := Ideal) q K (ix1 b) = ∑ l : Fin 1000000, Ideal.exp (logitR q K b l - refMax q K b) := by
  have e : ∀ k : Fin 1000000, idx_main_v15 (ix1 b) k = ix2 b k := fun k =>
    funext fun a => Fin.ext (by match a with | ⟨0, _⟩ => rfl | ⟨1, _⟩ => rfl)
  rw [val_main_v15_apply, val_main_cst_3_apply]
  simp only [Ideal.ofBits_def, Ideal.ofBits_zero_f32, zero_add, e, weight_eq]

/-- The program's result at (b, d) is the one-pass form under the shift `refMax`. -/
theorem out_eq (q : QArr) (K V : MArr) (b : Fin 32) (d : Fin 128) :
    val_main_v19 (F := Ideal) q K V (ix2 b d) = refOut q K V (refMax q K) b d := by
  have el : ∀ k : Fin 1000000, lidx_main_v19 (ix2 b d) k = ix2 b k := fun k =>
    funext fun a => Fin.ext (by match a with | ⟨0, _⟩ => rfl | ⟨1, _⟩ => rfl)
  have er : ∀ k : Fin 1000000, ridx_main_v19 (ix2 b d) k = ix2 k d := fun k =>
    funext fun a => Fin.ext (by match a with | ⟨0, _⟩ => rfl | ⟨1, _⟩ => rfl)
  have e : ∀ k : Fin 1000000, idx_main_v16 (idx_main_v17 (ix2 b k)) = ix1 b := fun k =>
    funext fun a => Fin.ext (by match a with | ⟨0, _⟩ => rfl)
  rw [val_main_v19_apply]
  unfold refOut
  refine Finset.sum_congr rfl fun k _ => ?_
  rw [el, er, val_main_v18_apply, val_main_v17_apply, val_main_v16_apply, e, weight_eq, total_eq]
  rfl

/-- The reference's result array is the one-pass form of its three arguments under the shift `refMax`. -/
theorem val_eq (q : QArr) (K V : MArr) :
    val_main_v19 (F := Ideal) q K V = fun i => refOut q K V (refMax q K) (i 0) (i 1) := by
  funext i
  obtain ⟨b, d, rfl⟩ : ∃ (b : Fin 32) (d : Fin 128), i = ix2 b d := ⟨i 0, i 1, eq_ix2 i⟩
  exact out_eq q K V b d

/-! ## The program's run -/

open Idealize.ShloMosaic.TcCoe Idealize.SL.Sem in
/-- On every device, from any memory with zero counters, every weakly fair execution of the one-pass program
    terminates with its result array the one-pass form of the three argument arrays under the shift `refMax`, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = (fun i : S32x128.Idx => refOut (m ((c.tc : Thread nD τ).loc main_arg0)) (m ((c.tc : Thread nD τ).loc main_arg1))
            (m ((c.tc : Thread nD τ).loc main_arg2))
            (refMax (m ((c.tc : Thread nD τ).loc main_arg0)) (m ((c.tc : Thread nD τ).loc main_arg1))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v19_eq _ _ _).trans (val_eq _ _ _)), (h c).2⟩)
    (Cert.ReferenceIdeal.Value.run (F := Ideal) m ρ)

end Cert.Attn.Reference

end
-- ==== Proof.AttnFinite.lean ====
/-
  From "every absolute value of every entry is below +∞" to "every entry is a real number", for three arrays at once.

  The hypothesis is one bit: the conjunction of three bits, each the and-reduction over both axes of the pointwise
  comparison |x| < +∞ of one array.  A conjunction of bits is 1 exactly when both are; an and-reduction that is 1 has
  every operand bit 1; and an extended real x with max x (−x) strictly below +∞ is neither infinity, hence a real
  number.  Nothing here enumerates an index set: the argument is the same for 32 · 128 entries and for
  1,000,000 · 128.
-/
import proofs.«142354_g77575699301056_cont_9to1_m_582_14_alg».proof.Pre_finite_inputs
import proofs.«142354_g77575699301056_cont_9to1_m_582_14_alg».proof.Proof.Gen.Pre_finite_inputs
import proofs.«142354_g77575699301056_cont_9to1_m_582_14_alg».proof.Proof.AttnConsts
import Idealize.ShloMosaic.PureOps.Ideal
import Idealize.ShloMosaic.Lib.ValueIdx
import Idealize.ShloMosaic.Lib.Affine
import Idealize.ShloMosaic.Lib.ReduceAll

noncomputable section

namespace Cert.Attn.Finite

open Idealize.ShloMosaic Cert.Pre_finite_inputs

/-- The scalar shape has exactly one index. -/
instance : Subsingleton S_.Idx := ⟨fun a b => funext fun d => d.elim0⟩

/-- A truth value whose one-bit word is 1 is true. -/
theorem eq_true_of_ofBool {b : Bool} (h : BitVec.ofBool b = 1#1) : b = true := by
  cases b with
  | true => rfl
  | false => exact absurd h (by decide)

/-- An extended real whose absolute value max x (−x) compares strictly below the word of +∞ is a real number:
    x < +∞ excludes +∞, and −x < +∞ excludes −∞. -/
theorem real_of_abs_lt (x : EReal)
    (h : Ideal.cmp .olt (max x (-x)) (Ideal.ofBits .f32 0x7F800000#32) = 1#1) : ∃ r : ℝ, x = (r : EReal) := by
  rw [Cert.Attn.pos_inf_word] at h
  have hlt : max x (-x) < (⊤ : EReal) := of_decide_eq_true (eq_true_of_ofBool h)
  obtain ⟨h1, h2⟩ := max_lt_iff.1 hlt
  have hx_top : x ≠ ⊤ := ne_of_lt h1
  have hx_bot : x ≠ ⊥ := by
    rintro rfl
    simp at h2
  exact ⟨x.toReal, (EReal.coe_toReal hx_top hx_bot).symm⟩

/-- If the three "all entries finite" bits and-ed together give 1, every entry of each array is a real number. -/
theorem real_of_pre [hPre_finite_inputs : Cert.Pre_finite_inputs.Facts]
    (x0 : FVec Ideal S32x128 .f32) (x1 x2 : FVec Ideal S1000000x128 .f32)
    (h : Cert.Pre_finite_inputs.fn (F := Ideal) x0 x1 x2 = (fun _ => 1#1)) :
    (∀ i, ∃ r : ℝ, x0 i = (r : EReal)) ∧ (∀ i, ∃ r : ℝ, x1 i = (r : EReal))
      ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt (x0 i) (Host.reduce_andi_all _ _ _ _ _ h0' i),
    fun i => real_of_abs_lt (x1 i) (Host.reduce_andi_all _ _ _ _ _ h1 i),
    fun i => real_of_abs_lt (x2 i) (Host.reduce_andi_all _ _ _ _ _ h2 i)⟩

end Cert.Attn.Finite

end
-- ==== Proof.AttnReal.lean ====
/-
  With real inputs every intermediate quantity of the two attention forms is a real number.

  A finite sum of reals taken among the extended reals is the real sum. A query row's sum of squares is a
  nonnegative real, so its norm is a real; the floor is a positive real, so the floored norm is a positive real and
  the unit row is real. Dividing by the temperature is multiplying by its reciprocal, and a constant factor comes
  out of a finite real sum: the two forms' logits are the same real number.
-/
import proofs.«142354_g77575699301056_cont_9to1_m_582_14_alg».proof.Proof.AttnConsts

noncomputable section

open scoped BigOperators

namespace Cert.Attn

open Idealize.ShloMosaic Idealize.ShloMosaic.ValueIdx

/-- A finite sum of reals taken among the extended reals is the real sum. -/
theorem coe_sum {ι : Type*} (s : Finset ι) (g : ι → ℝ) :
    (∑ i ∈ s, ((g i : ℝ) : EReal)) = ((∑ i ∈ s, g i : ℝ) : EReal) := by
  classical
  refine Finset.induction_on s (by simp) fun a t ha ih => ?_
  rw [Finset.sum_insert ha, Finset.sum_insert ha, ih, EReal.coe_add]

/-- The larger of two reals among the extended reals is the larger real. -/
theorem coe_max (x y : ℝ) : max (x : EReal) (y : EReal) = ((max x y : ℝ) : EReal) :=
  (EReal.coe_strictMono.monotone.map_max).symm

/-- A unit query row is real. -/
theorem unit_real (q : QArr) (hq : ∀ i, ∃ r : ℝ, q i = (r : EReal)) (b : Fin 32) (e : Fin 128) :
    ∃ r : ℝ, unit q b e = (r : EReal) := by
  choose qr hqr using hq
  obtain ⟨ε, hε, heps⟩ := eps_pos
  have hsum : (∑ e : Fin 128, q (ix2 b e) * q (ix2 b e))
      = ((∑ e : Fin 128, qr (ix2 b e) * qr (ix2 b e) : ℝ) : EReal) := by
    rw [← coe_sum]
    exact Finset.sum_congr rfl fun e _ => by rw [hqr, EReal.coe_mul]
  have hnn : ¬ (∑ e : Fin 128, qr (ix2 b e) * qr (ix2 b e)) < 0 :=
    not_lt.mpr (Finset.sum_nonneg fun e _ => mul_self_nonneg _)
  have hmax : max (norm q b) eps
      = ((max (Real.sqrt (∑ e : Fin 128, qr (ix2 b e) * qr (ix2 b e))) ε : ℝ) : EReal) := by
    rw [norm, hsum, Ideal.sqrt_coe, if_neg hnn, heps, coe_max]
  have hpos : max (Real.sqrt (∑ e : Fin 128, qr (ix2 b e) * qr (ix2 b e))) ε ≠ 0 :=
    (lt_max_of_lt_right hε).ne'
  exact ⟨_, by rw [unit, hmax, Ideal.div_coe hpos, hqr, ← EReal.coe_mul]⟩

/-- The two forms' logits are one and the same real number. -/
theorem logit_real (q : QArr) (K : MArr) (hq : ∀ i, ∃ r : ℝ, q i = (r : EReal))
    (hK : ∀ i, ∃ r : ℝ, K i = (r : EReal)) (b : Fin 32) (j : Fin 1000000) :
    ∃ r : ℝ, logitR q K b j = (r : EReal) ∧ logitK q K b j = (r : EReal) := by
  choose u hu using fun b e => unit_real q hq b e
  choose Kr hKr using hK
  refine ⟨(∑ e : Fin 128, u b e * Kr (ix2 j e)) * (268435456 / 13421773), ?_, ?_⟩
  · have h : ∀ e : Fin 128, unit q b e * K (ix2 j e) = ((u b e * Kr (ix2 j e) : ℝ) : EReal) := fun e => by
      rw [hu, hKr, ← EReal.coe_mul]
    rw [logitR, div_temp, invT, Finset.sum_congr rfl fun e _ => h e, coe_sum, ← EReal.coe_mul]
  · have h : ∀ e : Fin 128, unit q b e * invT * K (ix2 j e)
        = ((u b e * (268435456 / 13421773) * Kr (ix2 j e) : ℝ) : EReal) := fun e => by
      rw [hu, hKr, invT, ← EReal.coe_mul, ← EReal.coe_mul]
    rw [logitK, Finset.sum_congr rfl fun e _ => h e, coe_sum, Finset.sum_mul]
    congr 1
    exact Finset.sum_congr rfl fun e _ => by ring

/-- The one-pass form's logits are real. -/
theorem logitR_real (q : QArr) (K : MArr) (hq : ∀ i, ∃ r : ℝ, q i = (r : EReal))
    (hK : ∀ i, ∃ r : ℝ, K i = (r : EReal)) (b : Fin 32) (j : Fin 1000000) :
    ∃ r : ℝ, logitR q K b j = (r : EReal) :=
  (logit_real q K hq hK b j).imp fun _ h => h.1

end Cert.Attn

end
-- ==== Proof.LibBlockSum.lean ====
/-
  A sum over consecutive blocks of positions.

  Cut the naturals below B·L into B consecutive blocks of L positions. Summing a function block by block, position
  by position inside a block, is summing it over all positions below B·L; and when the function vanishes from N
  on, N ≤ B·L, that is the sum over the first N positions only — the last blocks may overhang the range that
  matters. Stated in any commutative additive monoid, so it holds on the extended reals, where no cancellation is
  available.
-/
import Mathlib.Algebra.BigOperators.Fin
import Mathlib.Algebra.BigOperators.Intervals

namespace Cert.Lib.BlockSum

variable {M : Type*} [AddCommMonoid M]

/-- The sum over `B` consecutive blocks of `L` positions is the sum over the first `B * L` positions. -/
theorem sum_range_blocks (L : ℕ) (f : ℕ → M) :
    ∀ B : ℕ, ∑ j ∈ Finset.range B, ∑ l ∈ Finset.range L, f (j * L + l) = ∑ q ∈ Finset.range (B * L), f q
  | 0 => by simp
  | B + 1 => by
    rw [Finset.sum_range_succ, sum_range_blocks L f B, Nat.succ_mul, Finset.sum_range_add]

/-- Blocks indexed by `Fin L` inside, by a range outside; a function that vanishes from `N` on; `N` positions
    covered by the `B` blocks: the block sums add up to the sum over the first `N` positions. -/
theorem sum_blocks_eq (B L N : ℕ) (hN : N ≤ B * L) (f : ℕ → M) (hf : ∀ q, N ≤ q → f q = 0) :
    ∑ j ∈ Finset.range B, ∑ l : Fin L, f (j * L + l.val) = ∑ p : Fin N, f p.val := by
  have h1 : ∀ j, ∑ l : Fin L, f (j * L + l.val) = ∑ l ∈ Finset.range L, f (j * L + l) :=
    fun j => Fin.sum_univ_eq_sum_range (fun l => f (j * L + l)) L
  rw [Finset.sum_congr rfl fun j _ => h1 j, sum_range_blocks, Fin.sum_univ_eq_sum_range (fun q => f q) N]
  obtain ⟨d, hd⟩ := Nat.exists_eq_add_of_le hN
  rw [hd, Finset.sum_range_add]
  have h0 : ∑ x ∈ Finset.range d, f (N + x) = 0 := Finset.sum_eq_zero fun x _ => hf _ (Nat.le_add_right _ _)
  rw [h0, add_zero]

end Cert.Lib.BlockSum
-- ==== Proof.AttnBlocks.lean ====
/-
  The streaming form's running totals are sums over the whole memory.

  The running total after step n is the sum of the steps 0 … n. A step adds two consecutive blocks of 5,000 rows,
  block 2 n and block 2 n + 1, so the 100 steps add the 200 blocks 0 … 199 in order, and 200 consecutive blocks of
  5,000 rows are the rows 0 … 999,999, each exactly once (below 1,000,000 the remainder in the row number is the
  number itself). Hence the total after the last step of any per-row quantity is its sum over all rows.
-/
import proofs.«142354_g77575699301056_cont_9to1_m_582_14_alg».proof.Proof.AttnSpec
import proofs.«142354_g77575699301056_cont_9to1_m_582_14_alg».proof.Proof.LibBlockSum

noncomputable section

open scoped BigOperators

namespace Cert.Attn

/-- The running total after step `n` is the sum of the steps up to `n`. -/
theorem accum_eq_sum (P : ℕ → EReal) : ∀ n : ℕ, accum P n = ∑ k ∈ Finset.range (n + 1), P k
  | 0 => by simp [accum]
  | n + 1 => by rw [accum, accum_eq_sum P n]; exact (Finset.sum_range_succ P (n + 1)).symm

/-- The 100 steps of two blocks of 5,000 rows add a per-row quantity over all 1,000,000 rows. -/
theorem steps_eq_sum (F : Fin 1000000 → EReal) :
    accum (fun n => (∑ r : Fin 5000, F (row n 0 r)) + ∑ r : Fin 5000, F (row n 1 r)) 99 = ∑ j, F j := by
  let f : ℕ → EReal := fun p => F ⟨p % 1000000, Nat.mod_lt _ (by norm_num)⟩
  let g : ℕ → EReal := fun j => ∑ l ∈ Finset.range 5000, f (j * 5000 + l)
  have hrow : ∀ (n : ℕ) (i : Fin 2), ∑ r : Fin 5000, F (row n i r) = g (2 * n + i.val) := fun n i =>
    Fin.sum_univ_eq_sum_range (fun l => f ((2 * n + i.val) * 5000 + l)) 5000
  have hstep : ∀ n : ℕ, (∑ r : Fin 5000, F (row n 0 r)) + ∑ r : Fin 5000, F (row n 1 r)
      = ∑ l ∈ Finset.range 2, g (n * 2 + l) := by
    intro n
    rw [hrow n 0, hrow n 1, Finset.sum_range_succ, Finset.sum_range_succ, Finset.sum_range_zero, zero_add,
      mul_comm n 2]
    rfl
  rw [accum_eq_sum, show 99 + 1 = 100 from rfl, Finset.sum_congr rfl fun n _ => hstep n,
    Cert.Lib.BlockSum.sum_range_blocks 2 g 100]
  show ∑ q ∈ Finset.range (100 * 2), ∑ l ∈ Finset.range 5000, f (q * 5000 + l) = _
  rw [Cert.Lib.BlockSum.sum_range_blocks 5000 f (100 * 2), show 100 * 2 * 5000 = 1000000 from by norm_num,
    ← Fin.sum_univ_eq_sum_range f 1000000]
  exact Finset.sum_congr rfl fun j _ => congrArg F (Fin.ext (Nat.mod_eq_of_lt j.isLt))

end Cert.Attn

end
-- ==== Proof.AttnAlgebra.lean ====
/-
  Over real inputs the streaming form and the one-pass form of attention agree.

  Write x j for the common real logit of row j, T for the fixed shift and m for the row-wise shift. The streaming
  weights are exp (x j − T) = exp (m − T) · exp (x j − m): the one-pass weights times one positive factor. The
  streaming totals are sums over the whole memory, so the factor comes out of both totals and cancels in their
  quotient; what remains is (∑ a j · v j) / S with a j = exp (x j − m) and S = ∑ a l > 0, which is ∑ (a j / S) · v j.
-/
import proofs.«142354_g77575699301056_cont_9to1_m_582_14_alg».proof.Proof.AttnReal
import proofs.«142354_g77575699301056_cont_9to1_m_582_14_alg».proof.Proof.AttnBlocks

noncomputable section

open scoped BigOperators

namespace Cert.Attn

open Idealize.ShloMosaic Idealize.ShloMosaic.ValueIdx

/-- Over the reals: a weighted mean under exponential weights does not depend on the shift of the exponent, and
    the quotient of the two sums is the sum of the quotients. -/
theorem real_softmax {ι : Type*} [Fintype ι] [Nonempty ι] (x v : ι → ℝ) (T m : ℝ) :
    (∑ j, Real.exp (x j - T) * v j) * (1 / ∑ j, Real.exp (x j - T))
      = ∑ j, Real.exp (x j - m) * (1 / ∑ l, Real.exp (x l - m)) * v j := by
  have hS : (∑ l, Real.exp (x l - m)) ≠ 0 :=
    (Finset.sum_pos (fun l _ => Real.exp_pos (x l - m)) Finset.univ_nonempty).ne'
  have hE : Real.exp (m - T) ≠ 0 := (Real.exp_pos _).ne'
  have hc : ∀ j, Real.exp (x j - T) = Real.exp (m - T) * Real.exp (x j - m) := fun j => by
    rw [← Real.exp_add]; congr 1; ring
  have hN : ∑ j, Real.exp (x j - T) * v j = Real.exp (m - T) * ∑ j, Real.exp (x j - m) * v j := by
    rw [Finset.mul_sum]; exact Finset.sum_congr rfl fun j _ => by rw [hc]; ring
  have hD : ∑ j, Real.exp (x j - T) = Real.exp (m - T) * ∑ l, Real.exp (x l - m) := by
    rw [Finset.mul_sum]; exact Finset.sum_congr rfl fun j _ => hc j
  have hR : ∑ j, Real.exp (x j - m) * (1 / ∑ l, Real.exp (x l - m)) * v j
      = (∑ j, Real.exp (x j - m) * v j) * (1 / ∑ l, Real.exp (x l - m)) := by
    rw [Finset.sum_mul]; exact Finset.sum_congr rfl fun j _ => by ring
  rw [hN, hD, hR]
  field_simp

/-- The streaming form's result is the one-pass form's, whatever real row-wise shift the latter uses. -/
theorem kerOut_eq_refOut (q : QArr) (K V : MArr) (hq : ∀ i, ∃ r : ℝ, q i = (r : EReal))
    (hK : ∀ i, ∃ r : ℝ, K i = (r : EReal)) (hV : ∀ i, ∃ r : ℝ, V i = (r : EReal)) (M : Fin 32 → EReal)
    (hM : ∀ b, ∃ r : ℝ, M b = (r : EReal)) (b : Fin 32) (d : Fin 128) :
    kerOut q K V b d = refOut q K V M b d := by
  haveI : Nonempty (Fin 1000000) := ⟨⟨0, by norm_num⟩⟩
  choose x hx using fun j => logit_real q K hq hK b j
  choose Vr hVr using hV
  obtain ⟨m, hm⟩ := hM b
  -- the streaming weights and the one-pass weights as reals
  have hw : ∀ j, wK q K b j = ((Real.exp (x j - 268435456 / 13421773) : ℝ) : EReal) := fun j => by
    rw [wK, (hx j).2, invT, ← EReal.coe_sub, Ideal.exp_coe]
  have ha : ∀ j, Ideal.exp (logitR q K b j - M b) = ((Real.exp (x j - m) : ℝ) : EReal) := fun j => by
    rw [(hx j).1, hm, ← EReal.coe_sub, Ideal.exp_coe]
  -- the two running totals are sums over the whole memory
  have hNum : accum (fun n => pointNum q K V n b d) 99
      = ((∑ j, Real.exp (x j - 268435456 / 13421773) * Vr (ix2 j d) : ℝ) : EReal) := by
    rw [← coe_sum]
    refine (steps_eq_sum fun j => wK q K b j * V (ix2 j d)).trans (Finset.sum_congr rfl fun j _ => ?_)
    rw [hw, hVr, ← EReal.coe_mul]
  have hDen : accum (fun n => pointDen q K n b) 99
      = ((∑ j, Real.exp (x j - 268435456 / 13421773) : ℝ) : EReal) := by
    rw [← coe_sum]
    exact (steps_eq_sum fun j => wK q K b j).trans (Finset.sum_congr rfl fun j _ => hw j)
  have hDpos : (∑ j, Real.exp (x j - 268435456 / 13421773)) ≠ 0 :=
    (Finset.sum_pos (fun j _ => Real.exp_pos _) Finset.univ_nonempty).ne'
  have hSpos : (∑ l, Real.exp (x l - m)) ≠ 0 :=
    (Finset.sum_pos (fun l _ => Real.exp_pos _) Finset.univ_nonempty).ne'
  -- the one-pass form's total weight and its terms
  have hS : (∑ l, Ideal.exp (logitR q K b l - M b)) = ((∑ l, Real.exp (x l - m) : ℝ) : EReal) := by
    rw [← coe_sum]; exact Finset.sum_congr rfl fun l _ => ha l
  have hterm : ∀ j, Ideal.div (Ideal.exp (logitR q K b j - M b)) (∑ l, Ideal.exp (logitR q K b l - M b))
        * V (ix2 j d)
      = ((Real.exp (x j - m) * (1 / ∑ l, Real.exp (x l - m)) * Vr (ix2 j d) : ℝ) : EReal) := fun j => by
    rw [hS, Ideal.div_coe hSpos, ha, hVr, ← EReal.coe_mul, ← EReal.coe_mul]
  rw [kerOut, hNum, hDen, Ideal.div_coe hDpos, ← EReal.coe_mul, refOut, Finset.sum_congr rfl fun j _ => hterm j,
    coe_sum, real_softmax (fun j => x j) (fun j => Vr (ix2 j d)) (268435456 / 13421773) m]

end Cert.Attn

end
-- ==== Proof.lean ====
/-
  Attention of 32 queries over a memory of 1,000,000 key rows and value rows: a streaming kernel against a one-pass
  reference, equal on the extended reals.

  THE KERNEL walks the memory in 100 steps. At each step it loads two blocks of 5,000 key rows and the two
  matching blocks of value rows (the keys and the values are each handed to it through two windows), scales the
  unit query rows by the inverse temperature, takes their inner products with the block's keys, subtracts a FIXED
  shift — the inverse temperature again — exponentiates, and adds the weights times the value rows, and the weights
  themselves, to two running totals kept in scratch memory; after the last step it divides the two totals.
  THE REFERENCE divides each query row by its floored norm, multiplies by the transposed keys, divides by the
  temperature, subtracts each row's maximum, exponentiates, divides by the row's total and multiplies by the values.

  The kernel's inverse temperature is the reciprocal of the reference's temperature (the certificate's table names
  it so), so dividing by the one is multiplying by the other. On finite inputs every quantity is a real number,
  the two shifts differ by a positive factor common to numerator and denominator, the 200 blocks enumerate the memory
  once, and a quotient of finite sums is the sum of the quotients: the two results agree entry by entry.

  The frames: each program runs to the end and leaves its three arguments as they were — the kernel's because no
  window writes an argument array (the keys and the values are read through half shares by their two windows each),
  the reference's because it is a host program that writes only its own intermediates.
-/
import proofs.«142354_g77575699301056_cont_9to1_m_582_14_alg».proof.Defs
import proofs.«142354_g77575699301056_cont_9to1_m_582_14_alg».proof.Proof.Gen.Kernel
import proofs.«142354_g77575699301056_cont_9to1_m_582_14_alg».proof.Proof.Gen.KernelIdeal
import proofs.«142354_g77575699301056_cont_9to1_m_582_14_alg».proof.Proof.Gen.ReferenceIdeal
import proofs.«142354_g77575699301056_cont_9to1_m_582_14_alg».proof.Proof.Gen.Pre_finite_inputs
import proofs.«142354_g77575699301056_cont_9to1_m_582_14_alg».proof.Proof.KBLaunch
import proofs.«142354_g77575699301056_cont_9to1_m_582_14_alg».proof.Proof.KILaunch
import proofs.«142354_g77575699301056_cont_9to1_m_582_14_alg».proof.Proof.KIValue
import proofs.«142354_g77575699301056_cont_9to1_m_582_14_alg».proof.Proof.AttnReference
import proofs.«142354_g77575699301056_cont_9to1_m_582_14_alg».proof.Proof.AttnFinite
import proofs.«142354_g77575699301056_cont_9to1_m_582_14_alg».proof.Proof.AttnAlgebra
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Hand.frame m ρ

/-- So does the idealized kernel. -/
theorem frame_ideal : Cert.frame_KernelIdeal := fun m ρ _ => Cert.KernelIdeal.Hand.frame m ρ

/-- The reference is a host program: its run, with the result dropped. -/
theorem frame_reference : Cert.frame_ReferenceIdeal := fun m ρ _ =>
  (θ_run Cert.ReferenceIdeal.defs _ _).mono (fun _ h c => (h c).2) (Cert.Attn.Reference.run m ρ)

/-- The three occurrences of the inverse temperature in the kernel are the table's entry: the reciprocal of the
    reference's temperature, as a rational. -/
theorem preserves : Cert.preserves_Kernel_KernelIdeal :=
  have st := IdealRules.named_const.statement Cert.KernelIdeal.κ "inv_temperature" .f32 0x41A00000#32 ((268435456 / 13421773 : ℝ) : EReal) rfl
  ⟨st, st, st⟩

/-- From memories agreeing on finite arguments the kernel's result array ends at the streaming formula (its run and
    its value) and the reference's at the one-pass formula under the row maximum (its run); the two formulas agree on
    real arrays. -/
theorem algebraic : Cert.algebraic_KernelIdeal_ReferenceIdeal := by
  intro m ρ m' ρ' hpre hagree
  refine ⟨fun c => fun i => Cert.Attn.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1), ?_, ?_⟩
  · exact (θ_run Cert.KernelIdeal.defs _ _).mono
      (fun _ h c => ⟨(h c).1.trans (Cert.KernelIdeal.Hand.result_eq m c), (h c).2⟩) (Cert.KernelIdeal.Hand.run_named (F := Ideal) m ρ)
  · refine (θ_run Cert.ReferenceIdeal.defs _ _).mono (fun _ h c => ⟨(h c).1.trans ?_, (h c).2⟩) (Cert.Attn.Reference.run m' ρ')
    obtain ⟨hq, hK, hV⟩ := Cert.Attn.Finite.real_of_pre _ _ _ (hpre c)
    rw [(hagree c).1, (hagree c).2.1, (hagree c).2.2]
    funext i
    exact (Cert.Attn.kerOut_eq_refOut _ _ _ hq hK hV _
      (Cert.Attn.Reference.refMax_real _ _ (Cert.Attn.logitR_real _ _ hq hK)) (i 0) (i 1)).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
